-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128 : Shape := ⟨1, ![128]⟩
abbrev S256x128 : Shape := ⟨2, ![256, 128]⟩
abbrev S256 : Shape := ⟨1, ![256]⟩
abbrev S256x256 : Shape := ⟨2, ![256, 256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg8 : FVec F S256 .f32) (main_arg9 : FVec F S256x256 .f32) (main_arg10 : FVec F S256x128 .f32) (main_arg11 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg5 : FVec F S256 .f32) (main_arg6 : FVec F S256x128 .f32) (main_arg7 : FVec F S256x256 .f32) (main_arg8 : FVec F S256 .f32) (main_arg9 : FVec F S256x256 .f32) (main_arg10 : FVec F S256x128 .f32) (main_arg11 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S10000x128 .f32) (main_arg1 : IVec S2x640000 32) (main_arg2 : FVec F S128 .f32) (main_arg3 : FVec F S128 .f32) (main_arg4 : FVec F S256x128 .f32) (main_arg5 : FVec F S256 .f32) (main_arg6 : FVec F S256x128 .f32) (main_arg7 : FVec F S256x256 .f32) (main_arg8 : FVec F S256 .f32) (main_arg9 : FVec F S256x256 .f32) (main_arg10 : FVec F S256x128 .f32) (main_arg11 : FVec F S256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_v13 main_v16
-- ==== Kernel.lean ====
abbrev S10000x128 : Shape := ⟨2, ![10000, 128]⟩
abbrev S2x640000 : Shape := ⟨2, ![2, 640000]⟩
abbrev S128 : Shape := ⟨1, ![128]⟩
abbrev S256x128 : Shape := ⟨2, ![256, 128]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S10000 : Shape := ⟨1, ![10000]⟩
abbrev S640000x1 : Shape := ⟨2, ![640000, 1]⟩
abbrev S10000x1 : Shape := ⟨2, ![10000, 1]⟩
abbrev S640000x128 : Shape := ⟨2, ![640000, 128]⟩
abbrev S128x256 : Shape := ⟨2, ![128, 256]⟩
abbrev S1x256 : Shape := ⟨2, ![1, 256]⟩
abbrev S10000x256 : Shape := ⟨2, ![10000, 256]⟩
abbrev S1000x128 : Shape := ⟨2, ![1000, 128]⟩
abbrev S1000x1 : Shape := ⟨2, ![1000, 1]⟩
abbrev S1000x256 : Shape := ⟨2, ![1000, 256]⟩
abbrev S640000x256 : Shape := ⟨2, ![640000, 256]⟩

abbrev nBuf : Space → Nat
  | .hbm => 66
  | .vmem => 33
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S256x128, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x128, .f32⟩
  | .hbm, ⟨11, _⟩ => ⟨S256, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S1x128, .f32⟩
  | .hbm, ⟨17, _⟩ => ⟨S1x128, .f32⟩
  | .hbm, ⟨18, _⟩ => ⟨S10000x128, .f32⟩
  | .hbm, ⟨19, _⟩ => ⟨S10000x128, .bf16⟩
  | .hbm, ⟨20, _⟩ => ⟨S_, .f32⟩
  | .hbm, ⟨21, _⟩ => ⟨S640000, .f32⟩
  | .hbm, ⟨22, _⟩ => ⟨S_, .f32⟩
  | .hbm, ⟨23, _⟩ => ⟨S10000, .f32⟩
  | .hbm, ⟨24, _⟩ => ⟨S640000x1, .i32⟩
  | .hbm, ⟨25, _⟩ => ⟨S10000, .f32⟩
  | .hbm, ⟨26, _⟩ => ⟨S10000x1, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .bf16⟩
  | .hbm, ⟨36, _⟩ => ⟨S640000x128, .f32⟩
  | .hbm, ⟨37, _⟩ => ⟨S_, .f32⟩
  | .hbm, ⟨38, _⟩ => ⟨S10000x128, .f32⟩
  | .hbm, ⟨39, _⟩ => ⟨S640000x1, .i32⟩
  | .hbm, ⟨40, _⟩ => ⟨S10000x128, .f32⟩
  | .hbm, ⟨41, _⟩ => ⟨S128x256, .f32⟩
  | .hbm, ⟨42, _⟩ => ⟨S1x256, .f32⟩
  | .hbm, ⟨43, _⟩ => ⟨S128x256, .f32⟩
  | .hbm, ⟨44, _⟩ => ⟨S10000x256, .f32⟩
  | .hbm, ⟨45, _⟩ => ⟨S10000x256, .bf16⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x256, .bf16⟩
  | .hbm, ⟨55, _⟩ => ⟨S640000x256, .f32⟩
  | .hbm, ⟨56, _⟩ => ⟨S_, .f32⟩
  | .hbm, ⟨57, _⟩ => ⟨S10000x256, .f32⟩
  | .hbm, ⟨58, _⟩ => ⟨S640000x1, .i32⟩
  | .hbm, ⟨59, _⟩ => ⟨S10000x256, .f32⟩
  | .hbm, ⟨60, _⟩ => ⟨S256x256, .f32⟩
  | .hbm, ⟨61, _⟩ => ⟨S1x256, .f32⟩
  | .hbm, ⟨62, _⟩ => ⟨S256x256, .f32⟩
  | .hbm, ⟨63, _⟩ => ⟨S128x256, .f32⟩
  | .hbm, ⟨64, _⟩ => ⟨S1x256, .f32⟩
  | .hbm, ⟨65, _⟩ => ⟨S10000x256, .f32⟩
  | .local _ .vmem, ⟨0, _⟩ => ⟨S10000x128, .f32⟩
  | .local _ .vmem, ⟨1, _⟩ => ⟨S1x128, .f32⟩
  | .local _ .vmem, ⟨2, _⟩ => ⟨S1x128, .f32⟩
  | .local _ .vmem, ⟨3, _⟩ => ⟨S10000x128, .f32⟩
  | .local _ .vmem, ⟨4, _⟩ => ⟨S10000x128, .bf16⟩
  | .local _ .vmem, ⟨5, _⟩ => ⟨S1000x128, .f32⟩
  | .local _ .vmem, ⟨6, _⟩ => ⟨S1000x128, .f32⟩
  | .local _ .vmem, ⟨7, _⟩ => ⟨S1000x1, .f32⟩
  | .local _ .vmem, ⟨8, _⟩ => ⟨S1000x1, .f32⟩
  | .local _ .vmem, ⟨9, _⟩ => ⟨S1000x128, .f32⟩
  | .local _ .vmem, ⟨10, _⟩ => ⟨S1000x128, .f32⟩
  | .local _ .vmem, ⟨11, _⟩ => ⟨S128x256, .f32⟩
  | .local _ .vmem, ⟨12, _⟩ => ⟨S1x256, .f32⟩
  | .local _ .vmem, ⟨13, _⟩ => ⟨S128x256, .f32⟩
  | .local _ .vmem, ⟨14, _⟩ => ⟨S1000x256, .f32⟩
  | .local _ .vmem, ⟨15, _⟩ => ⟨S1000x256, .f32⟩
  | .local _ .vmem, ⟨16, _⟩ => ⟨S1000x256, .bf16⟩
  | .local _ .vmem, ⟨17, _⟩ => ⟨S1000x256, .bf16⟩
  | .local _ .vmem, ⟨18, _⟩ => ⟨S1000x256, .f32⟩
  | .local _ .vmem, ⟨19, _⟩ => ⟨S1000x256, .f32⟩
  | .local _ .vmem, ⟨20, _⟩ => ⟨S1000x1, .f32⟩
  | .local _ .vmem, ⟨21, _⟩ => ⟨S1000x1, .f32⟩
  | .local _ .vmem, ⟨22, _⟩ => ⟨S1000x256, .f32⟩
  | .local _ .vmem, ⟨23, _⟩ => ⟨S1000x256, .f32⟩
  | .local _ .vmem, ⟨24, _⟩ => ⟨S1000x128, .f32⟩
  | .local _ .vmem, ⟨25, _⟩ => ⟨S1000x128, .f32⟩
  | .local _ .vmem, ⟨26, _⟩ => ⟨S256x256, .f32⟩
  | .local _ .vmem, ⟨27, _⟩ => ⟨S1x256, .f32⟩
  | .local _ .vmem, ⟨28, _⟩ => ⟨S256x256, .f32⟩
  | .local _ .vmem, ⟨29, _⟩ => ⟨S128x256, .f32⟩
  | .local _ .vmem, ⟨30, _⟩ => ⟨S1x256, .f32⟩
  | .local _ .vmem, ⟨31, _⟩ => ⟨S1000x256, .f32⟩
  | .local _ .vmem, ⟨32, _⟩ => ⟨S1000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev main_c_3 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg9_1 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem9_1 : DmaSem sig := 32

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1000x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1000x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  broadcasts_S1x128_S10000x128 : S1x128.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  shapeCasts_S10000_S10000x1 : S10000.ShapeCasts S10000x1
  bcast_S_S10000x128 : S_.BroadcastsInDim S10000x128 (![] : Fin 0 → Fin S10000x128.rank)
  transposes_S256x128_S128x256_1_0 : S256x128.Transposes [1, 0] S128x256
  shapeCasts_S256_S1x256 : S256.ShapeCasts S1x256
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  packedbf16_S1000x256_S1000x256_0_0 : (Rect.unit (s := S1000x256) ![0, 0] S1000x256.size inb_S1000x256_S1000x256_0_0).PackedRows (EltTy.packing .bf16)
  bcast_S_S10000x256 : S_.BroadcastsInDim S10000x256 (![] : Fin 0 → Fin S10000x256.rank)
  transposes_S256x256_S256x256_1_0 : S256x256.Transposes [1, 0] S256x256
  shapeCasts_S1000x256_S1000x256 : S1000x256.ShapeCasts S1000x256
  broadcasts_S1000x1_S1000x256 : S1000x1.Broadcasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S1000x128_S128x256_S1000x256_1_0_0_1_n_n_wf : DotDims.WF S1000x128 S128x256 S1000x256 [1] [0] [0] [1] [] []
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S10000x128.size a
  hwx0_3 : ∀ i : grid0.Coords, EltTy.bits .f32 = 32 ∨ (Rect.block (s := S10000x128) S10000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S10000x128.size a
  hwx0_4 : ∀ i : grid0.Coords, EltTy.bits .bf16 = 32 ∨ (Rect.block (s := S10000x128) S10000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S10000x1.size a
  hwx1_1 : ∀ i : grid1.Coords, EltTy.bits .f32 = 32 ∨ (Rect.block (s := S10000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S10000x128.size a
  hwx1_2 : ∀ i : grid1.Coords, EltTy.bits .f32 = 32 ∨ (Rect.block (s := S10000x128) S1000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x256.size a ≤ S10000x256.size a
  hwx1_6 : ∀ i : grid1.Coords, EltTy.bits .f32 = 32 ∨ (Rect.block (s := S10000x256) S1000x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x256.size a ≤ S10000x256.size a
  hwx1_7 : ∀ i : grid1.Coords, EltTy.bits .bf16 = 32 ∨ (Rect.block (s := S10000x256) S1000x256.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S10000x256.size a
  hwx2_0 : ∀ i : grid2.Coords, EltTy.bits .f32 = 32 ∨ (Rect.block (s := S10000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S10000x1.size a
  hwx2_1 : ∀ i : grid2.Coords, EltTy.bits .f32 = 32 ∨ (Rect.block (s := S10000x1) S1000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S10000x256.size a
  hwx2_2 : ∀ i : grid2.Coords, EltTy.bits .f32 = 32 ∨ (Rect.block (s := S10000x256) S1000x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S10000x128.size a
  hwx2_3 : ∀ i : grid2.Coords, EltTy.bits .f32 = 32 ∨ (Rect.block (s := S10000x128) S1000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x256.size a ≤ S128x256.size a
  hwx2_7 : ∀ i : grid2.Coords, EltTy.bits .f32 = 32 ∨ (Rect.block (s := S128x256) S128x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1000x256.size a ≤ S10000x256.size a
  hwx2_9 : ∀ i : grid2.Coords, EltTy.bits .f32 = 32 ∨ (Rect.block (s := S10000x256) S1000x256.size (cc2_transform_9 i) (hinb2_9 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S10000x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S10000x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v22) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26_0) S1000x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v26_1) S1000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v37) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26_0) S1000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S1000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v38) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v41) S128x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v42) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v43) S1000x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128 : Shape := ⟨1, ![128]⟩
abbrev S256x128 : Shape := ⟨2, ![256, 128]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S_ : Shape := ⟨0, ![]⟩
abbrev S1x128 : Shape := ⟨2, ![1, 128]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S128x256 : Shape := ⟨2, ![128, 256]⟩
abbrev S10000x256 : Shape := ⟨2, ![10000, 256]⟩
abbrev S1x256 : Shape := ⟨2, ![1, 256]⟩
abbrev S640000x256 : Shape := ⟨2, ![640000, 256]⟩

abbrev nBuf : Space → Nat
  | .hbm => 121
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S256x128, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x128, .f32⟩
  | .hbm, ⟨11, _⟩ => ⟨S256, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S1x128, .f32⟩
  | .hbm, ⟨31, _⟩ => ⟨S10000x128, .f32⟩
  | .hbm, ⟨32, _⟩ => ⟨S10000x128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S10000x128, .f32⟩
  | .hbm, ⟨39, _⟩ => ⟨S10000x128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S1x128, .f32⟩
  | .hbm, ⟨44, _⟩ => ⟨S10000x128, .f32⟩
  | .hbm, ⟨45, _⟩ => ⟨S10000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S10000x128, .f32⟩
  | .hbm, ⟨57, _⟩ => ⟨S640000x1, .i32⟩
  | .hbm, ⟨58, _⟩ => ⟨S10000x128, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S10000, .f32⟩
  | .hbm, ⟨63, _⟩ => ⟨S640000x1, .i32⟩
  | .hbm, ⟨64, _⟩ => ⟨S10000, .f32⟩
  | .hbm, ⟨65, _⟩ => ⟨S_, .f32⟩
  | .hbm, ⟨66, _⟩ => ⟨S10000, .f32⟩
  | .hbm, ⟨67, _⟩ => ⟨S10000, .f32⟩
  | .hbm, ⟨68, _⟩ => ⟨S10000x1, .f32⟩
  | .hbm, ⟨69, _⟩ => ⟨S10000x128, .f32⟩
  | .hbm, ⟨70, _⟩ => ⟨S10000x128, .f32⟩
  | .hbm, ⟨71, _⟩ => ⟨S128x256, .f32⟩
  | .hbm, ⟨72, _⟩ => ⟨S10000x256, .f32⟩
  | .hbm, ⟨73, _⟩ => ⟨S1x256, .f32⟩
  | .hbm, ⟨74, _⟩ => ⟨S10000x256, .f32⟩
  | .hbm, ⟨75, _⟩ => ⟨S10000x256, .f32⟩
  | .hbm, ⟨76, _⟩ => ⟨S128x256, .f32⟩
  | .hbm, ⟨77, _⟩ => ⟨S10000x256, .f32⟩
  | .hbm, ⟨78, _⟩ => ⟨S10000x256, .f32⟩
  | .hbm, ⟨79, _⟩ => ⟨S_, .f32⟩
  | .hbm, ⟨80, _⟩ => ⟨S10000x256, .f32⟩
  | .hbm, ⟨81, _⟩ => ⟨S10000x256, .f32⟩
  | .hbm, ⟨82, _⟩ => ⟨S_, .i32⟩
  | .hbm, ⟨83, _⟩ => ⟨S640000, .i32⟩
  | .hbm, ⟨84, _⟩ => ⟨S640000, .i1⟩
  | .hbm, ⟨85, _⟩ => ⟨S_, .i32⟩
  | .hbm, ⟨86, _⟩ => ⟨S640000, .i32⟩
  | .hbm, ⟨87, _⟩ => ⟨S640000, .i32⟩
  | .hbm, ⟨88, _⟩ => ⟨S640000, .i32⟩
  | .hbm, ⟨89, _⟩ => ⟨S640000x1, .i32⟩
  | .hbm, ⟨90, _⟩ => ⟨S640000x256, .f32⟩
  | .hbm, ⟨91, _⟩ => ⟨S_, .f32⟩
  | .hbm, ⟨92, _⟩ => ⟨S10000x256, .f32⟩
  | .hbm, ⟨93, _⟩ => ⟨S640000x1, .i32⟩
  | .hbm, ⟨94, _⟩ => ⟨S10000x256, .f32⟩
  | .hbm, ⟨95, _⟩ => ⟨S_, .f32⟩
  | .hbm, ⟨96, _⟩ => ⟨S640000, .f32⟩
  | .hbm, ⟨97, _⟩ => ⟨S_, .f32⟩
  | .hbm, ⟨98, _⟩ => ⟨S10000, .f32⟩
  | .hbm, ⟨99, _⟩ => ⟨S640000x1, .i32⟩
  | .hbm, ⟨100, _⟩ => ⟨S10000, .f32⟩
  | .hbm, ⟨101, _⟩ => ⟨S_, .f32⟩
  | .hbm, ⟨102, _⟩ => ⟨S10000, .f32⟩
  | .hbm, ⟨103, _⟩ => ⟨S10000, .f32⟩
  | .hbm, ⟨104, _⟩ => ⟨S10000x1, .f32⟩
  | .hbm, ⟨105, _⟩ => ⟨S10000x256, .f32⟩
  | .hbm, ⟨106, _⟩ => ⟨S10000x256, .f32⟩
  | .hbm, ⟨107, _⟩ => ⟨S256x256, .f32⟩
  | .hbm, ⟨108, _⟩ => ⟨S10000x256, .f32⟩
  | .hbm, ⟨109, _⟩ => ⟨S1x256, .f32⟩
  | .hbm, ⟨110, _⟩ => ⟨S10000x256, .f32⟩
  | .hbm, ⟨111, _⟩ => ⟨S10000x256, .f32⟩
  | .hbm, ⟨112, _⟩ => ⟨S256x256, .f32⟩
  | .hbm, ⟨113, _⟩ => ⟨S10000x256, .f32⟩
  | .hbm, ⟨114, _⟩ => ⟨S10000x256, .f32⟩
  | .hbm, ⟨115, _⟩ => ⟨S128x256, .f32⟩
  | .hbm, ⟨116, _⟩ => ⟨S10000x256, .f32⟩
  | .hbm, ⟨117, _⟩ => ⟨S10000x256, .f32⟩
  | .hbm, ⟨118, _⟩ => ⟨S1x256, .f32⟩
  | .hbm, ⟨119, _⟩ => ⟨S10000x256, .f32⟩
  | .hbm, ⟨120, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call0_cst : Ref sig .tc := ⟨.hbm, 79, rfl⟩
abbrev main_call0_v0 : Ref sig .tc := ⟨.hbm, 80, rfl⟩
abbrev main_v56 : Ref sig .tc := ⟨.hbm, 81, rfl⟩
abbrev main_c_9 : Ref sig .tc := ⟨.hbm, 82, rfl⟩
abbrev main_v57 : Ref sig .tc := ⟨.hbm, 83, rfl⟩
abbrev main_v58 : Ref sig .tc := ⟨.hbm, 84, rfl⟩
abbrev main_c_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  reducesTo_S10000x128_S128_d0 : S10000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S256x128_S128x256_1_0 : S256x128.Transposes [1, 0] S128x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  transposes_S256x256_S256x256_1_0 : S256x256.Transposes [1, 0] S256x256
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x256_S10000x256_1_0_0_1_n_n_wf : DotDims.WF S10000x128 S128x256 S10000x256 [1] [0] [0] [1] [] []
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1
  dot_S10000x256_S256x256_S10000x256_1_0_0_1_n_n_wf : DotDims.WF S10000x256 S256x256 S10000x256 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.Fold.lean ====
/-
  The kernel program's buffers read at the boundaries between its segments (host stretch, region, host stretch, region,
  host stretch, region). An argument array is never written, so at every boundary it still holds its launch contents; the
  source and target node lists are written once by the first host stretch and never again; the in-degree column and each
  region's outputs are carried unchanged through the later segments that only read them.
-/
import proofs.«130562_j82076825026573_2_alg».proof.Proof.Gen.KernelIdeal.Frame
import Idealize.ShloMosaic.Lib.StableHlo.Run
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-! ## The argument arrays at the boundaries where a later segment reads them -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-! ## The node lists: written by the first host stretch, read by the two later ones -/

theorem W2_main_v1 (c : Dev nD) : W2 m ρ c (Proc.devRef .tc main_v1) = W1 m ρ c (Proc.devRef .tc main_v1) :=
  W2_of_ne m ρ c main_v1 (by decide)
theorem W2_main_v3 (c : Dev nD) : W2 m ρ c (Proc.devRef .tc main_v3) = W1 m ρ c (Proc.devRef .tc main_v3) :=
  W2_of_ne m ρ c main_v3 (by decide)

theorem W4_main_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_main_v1 m ρ c
theorem W4_main_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_main_v3 m ρ c

/-! ## The regions' outputs, and the in-degree column, where later segments find them -/

theorem W2_main_v6_0 (c : Dev nD) : W2 m ρ c (Proc.devRef .tc main_v6_0) = (dat0 (V1 m ρ) c).arrAt 3 cfg0.N := W2_arr m ρ c 3
theorem W2_main_v6_1 (c : Dev nD) : W2 m ρ c (Proc.devRef .tc main_v6_1) = (dat0 (V1 m ρ) c).arrAt 4 cfg0.N := W2_arr m ρ c 4
theorem W4_main_v26_0 (c : Dev nD) : W4 m ρ c (Proc.devRef .tc main_v26_0) = (dat1 (V3 m ρ) c).arrAt 6 cfg1.N := W4_arr m ρ c 6
theorem W4_main_v26_1 (c : Dev nD) : W4 m ρ c (Proc.devRef .tc main_v26_1) = (dat1 (V3 m ρ) c).arrAt 7 cfg1.N := W4_arr m ρ c 7
theorem W6_main_v43 (c : Dev nD) : W6 m ρ c (Proc.devRef .tc main_v43) = (dat2 (V5 m ρ) c).arrAt 9 cfg2.N := W6_arr m ρ c 9

/-- The in-degree column is an input of the second region, which leaves it as it found it. -/
theorem W4_main_v11 (c : Dev nD) : W4 m ρ c (Proc.devRef .tc main_v11) = W3 m ρ c (Proc.devRef .tc main_v11) :=
  (W4_arr m ρ c 1).trans (((dat1 (V3 m ρ) c).arrAt_in 1 rfl _).trans (A_eq1 (V3 m ρ) c 1))

end Cert.KernelIdeal.Fold

end
-- ==== Proof.Host0.lean ====
/-
  The first host stretch: it splits the edge list into the source and the target node lists and lays the scale and the
  shift out as 1 x 128 rows. Read here: what the normalisation region finds in its three input arrays, and the two node
  lists as the reference's own first stages of the edge list.
-/
import proofs.«130562_j82076825026573_2_alg».proof.Proof.Fold
import proofs.«130562_j82076825026573_2_alg».proof.Proof.Gen.ReferenceIdeal.Read
import Idealize.ShloMosaic.Lib.ValueIdx
import Idealize.ShloMosaic.Lib.ValueLayout

set_option maxRecDepth 16384
set_option quotPrecheck false

noncomputable section

namespace Cert.KernelIdeal.Host0

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-- The input features as launched. -/
theorem V1_arg0 : V1 m ρ c main_arg0 = a0 := Fold.W1_main_arg0 m ρ c

/-- The scale, as the region finds it. -/
theorem V1_v4 (j : Fin 128) : V1 m ρ c main_v4 (ix2 (0 : Fin 1) j) = a2 (ix1 j) := by
  have e : V1 m ρ c main_v4 = shapeCast S1x128 (a2) shapeCasts_S128_S1x128 := by
    dsimp only [V1, W1, hostOps0]; after_results; rfl
  rw [e]; exact shapeCast_a_1a_apply _ _ (0 : Fin 1) j

/-- The shift, as the region finds it. -/
theorem V1_v5 (j : Fin 128) : V1 m ρ c main_v5 (ix2 (0 : Fin 1) j) = a3 (ix1 j) := by
  have e : V1 m ρ c main_v5 = shapeCast S1x128 (a3) shapeCasts_S128_S1x128 := by
    dsimp only [V1, W1, hostOps0]; after_results; rfl
  rw [e]; exact shapeCast_a_1a_apply _ _ (0 : Fin 1) j

/-- The source node list is the reference's own. -/
theorem W1_v1 : W1 m ρ c (Proc.devRef .tc main_v1) = Cert.ReferenceIdeal.Read.val_main_v1 (F := Ideal) (a1) := by
  dsimp only [W1, hostOps0]; after_results; rfl

/-- The target node list is the reference's own. -/
theorem W1_v3 : W1 m ρ c (Proc.devRef .tc main_v3) = Cert.ReferenceIdeal.Read.val_main_v3 (F := Ideal) (a1) := by
  dsimp only [W1, hostOps0]; after_results; rfl

end Cert.KernelIdeal.Host0

end
-- ==== Proof.Host1.lean ====
/-
  The second host stretch, read at what the first layer's region finds. It counts each node's incoming edges (a segment
  sum of ones over the target list, laid out as a column), gathers the normalised features' half-precision copy along the
  source list and sums the gathered rows per target node, transposes the two weight matrices and lays the bias out as a
  row. With the normalised arrays equal to the reference's normalised array (the hypotheses), the summed messages are the
  reference's summed messages and the in-degrees the reference's in-degrees: the same gather and the same segment sums
  of the same arrays, the half-precision copy being the same extended reals.
-/
import proofs.«130562_j82076825026573_2_alg».proof.Proof.Fold
import proofs.«130562_j82076825026573_2_alg».proof.Proof.Gen.ReferenceIdeal.Read
import Idealize.ShloMosaic.Lib.ValueIdx
import Idealize.ShloMosaic.Lib.ValueLayout
import proofs.«130562_j82076825026573_2_alg».proof.Proof.Host0

set_option maxRecDepth 16384
set_option quotPrecheck false

noncomputable section

namespace Cert.KernelIdeal.Host1

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

local notation "xn" => Cert.ReferenceIdeal.Read.val_main_v28 (F := Ideal) a0 a2 a3

/-- A length-n vector laid out as an n x 1 column reads, at (r, 0), the vector's entry r. -/
theorem col_of_vec {n : ℕ} {α : Type} (v : (⟨1, ![n]⟩ : Shape).Idx → α) (h : (⟨1, ![n]⟩ : Shape).ShapeCasts ⟨2, ![n, 1]⟩)
    (r : Fin n) : shapeCast ⟨2, ![n, 1]⟩ v h (ix2 r (0 : Fin 1)) = v (ix1 r) :=
  shapeCast_apply v h _ _ (by
    rw [Shape.rowMajor_val_two, Shape.rowMajor_val_one]
    show r.val = r.val * 1 + 0
    omega)

/-- A transposed matrix reads, at (k, j), the matrix at (j, k). -/
theorem transpose_entry {a b : ℕ} {α : Type} (x : (⟨2, ![a, b]⟩ : Shape).Idx → α)
    (h : (⟨2, ![a, b]⟩ : Shape).Transposes [1, 0] ⟨2, ![b, a]⟩) (k : Fin b) (j : Fin a) :
    transpose ⟨2, ![b, a]⟩ [1, 0] x h (ix2 k j) = x (ix2 j k) :=
  transpose_apply [1, 0] x h (ix2 k j) (ix2 j k) (fun q => match q with
    | ⟨0, _⟩ => rfl
    | ⟨1, _⟩ => rfl)

set_option maxHeartbeats 4000000 in
/-- The summed messages of the first layer are the reference's. -/
theorem V3_v22 (hx4 : (dat0 (V1 m ρ) c).arrAt 4 cfg0.N = (xn : (⟨S10000x128, .bf16⟩ : BufTy).Contents (Elt Ideal))) :
    V3 m ρ c main_v22 = Cert.ReferenceIdeal.Read.val_main_v38 (F := Ideal) a0 a1 a2 a3 := by
  dsimp only [V3, W3, hostOps1]
  after_results
  rw [Fold.W2_main_v3, Fold.W2_main_v1, Fold.W2_main_v6_1, hx4, Host0.W1_v1, Host0.W1_v3]
  rfl

/-- The in-degree column, at node r, is the reference's in-degree of r. -/
theorem V3_v11 (r : Fin 10000) : V3 m ρ c main_v11 (ix2 r (0 : Fin 1)) = Cert.ReferenceIdeal.Read.val_main_v42 (F := Ideal) a1 (ix1 r) := by
  have e : V3 m ρ c main_v11 = shapeCast S10000x1 (Cert.ReferenceIdeal.Read.val_main_v42 (F := Ideal) a1) shapeCasts_S10000_S10000x1 := by
    dsimp only [V3, W3, hostOps1]
    after_results
    rw [Fold.W2_main_v3, Host0.W1_v3]
    rfl
  rw [e]; exact col_of_vec _ _ r

/-- The normalised features reach the region unchanged. -/
theorem V3_v6_0 (hx3 : (dat0 (V1 m ρ) c).arrAt 3 cfg0.N = (xn : (⟨S10000x128, .f32⟩ : BufTy).Contents (Elt Ideal))) :
    V3 m ρ c main_v6_0 = xn := by
  dsimp only [V3, W3, hostOps1]
  after_results
  rw [Fold.W2_main_v6_0, hx3]

/-- The aggregation weights, transposed. -/
theorem V3_v23 (k : Fin 128) (j : Fin 256) : V3 m ρ c main_v23 (ix2 k j) = a4 (ix2 j k) := by
  have e : V3 m ρ c main_v23 = transpose S128x256 [1, 0] (a4) transposes_S256x128_S128x256_1_0 := by
    dsimp only [V3, W3, hostOps1]; after_results; rw [Fold.W2_main_arg4]
  rw [e]; exact transpose_entry _ _ k j

/-- The bias, as a row. -/
theorem V3_v24 (j : Fin 256) : V3 m ρ c main_v24 (ix2 (0 : Fin 1) j) = a5 (ix1 j) := by
  have e : V3 m ρ c main_v24 = shapeCast S1x256 (a5) shapeCasts_S256_S1x256 := by
    dsimp only [V3, W3, hostOps1]; after_results; rw [Fold.W2_main_arg5]; rfl
  rw [e]; exact shapeCast_a_1a_apply _ _ (0 : Fin 1) j

/-- The root weights, transposed. -/
theorem V3_v25 (k : Fin 128) (j : Fin 256) : V3 m ρ c main_v25 (ix2 k j) = a6 (ix2 j k) := by
  have e : V3 m ρ c main_v25 = transpose S128x256 [1, 0] (a6) transposes_S256x128_S128x256_1_0 := by
    dsimp only [V3, W3, hostOps1]; after_results; rw [Fold.W2_main_arg6]
  rw [e]; exact transpose_entry _ _ k j

end Cert.KernelIdeal.Host1

end
-- ==== Proof.Host2.lean ====
/-
  The third host stretch, read at what the second layer's region finds: the first layer's half-precision output gathered
  along the source list and summed per target node (the reference's second-layer summed messages, once the first layer's
  arrays are the reference's first-layer output: the hypotheses), the in-degree column, the first layer's output and the
  input features carried over, the three weight matrices transposed and the two biases as rows.
-/
import proofs.«130562_j82076825026573_2_alg».proof.Proof.Fold
import proofs.«130562_j82076825026573_2_alg».proof.Proof.Gen.ReferenceIdeal.Read
import Idealize.ShloMosaic.Lib.ValueIdx
import Idealize.ShloMosaic.Lib.ValueLayout
import proofs.«130562_j82076825026573_2_alg».proof.Proof.Host1

set_option maxRecDepth 16384
set_option quotPrecheck false

noncomputable section

namespace Cert.KernelIdeal.Host2

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

local notation "h1" => Cert.ReferenceIdeal.Read.val_main_v56 (F := Ideal) a0 a1 a2 a3 a4 a5 a6

set_option maxHeartbeats 4000000 in
/-- The summed messages of the second layer are the reference's. -/
theorem V5_v37 (hh7 : (dat1 (V3 m ρ) c).arrAt 7 cfg1.N = (h1 : (⟨S10000x256, .bf16⟩ : BufTy).Contents (Elt Ideal))) :
    V5 m ρ c main_v37 = Cert.ReferenceIdeal.Read.val_main_v66 (F := Ideal) a0 a1 a2 a3 a4 a5 a6 := by
  dsimp only [V5, W5, hostOps2]
  after_results
  rw [Fold.W4_main_v3, Fold.W4_main_v1, Fold.W4_main_v26_1, hh7, Host0.W1_v1, Host0.W1_v3]
  rfl

/-- The in-degree column is the one the first layer read; the reference's second count of the same target list is the
    same segment sum. -/
theorem V5_v11 (r : Fin 10000) : V5 m ρ c main_v11 (ix2 r (0 : Fin 1)) = Cert.ReferenceIdeal.Read.val_main_v70 (F := Ideal) a1 (ix1 r) := by
  have e : V5 m ρ c main_v11 = V3 m ρ c main_v11 := by
    dsimp only [V5, W5, hostOps2]
    after_results
    exact Fold.W4_main_v11 m ρ c
  rw [e, Host1.V3_v11]
  rfl

/-- The first layer's output reaches the region unchanged. -/
theorem V5_v26_0 (hh6 : (dat1 (V3 m ρ) c).arrAt 6 cfg1.N = (h1 : (⟨S10000x256, .f32⟩ : BufTy).Contents (Elt Ideal))) :
    V5 m ρ c main_v26_0 = h1 := by
  dsimp only [V5, W5, hostOps2]
  after_results
  rw [Fold.W4_main_v26_0, hh6]

/-- The input features as launched. -/
theorem V5_arg0 : V5 m ρ c main_arg0 = a0 := Fold.W5_main_arg0 m ρ c

/-- The aggregation weights, transposed. -/
theorem V5_v38 (k j : Fin 256) : V5 m ρ c main_v38 (ix2 k j) = a7 (ix2 j k) := by
  have e : V5 m ρ c main_v38 = transpose S256x256 [1, 0] (a7) transposes_S256x256_S256x256_1_0 := by
    dsimp only [V5, W5, hostOps2]; after_results; rw [Fold.W4_main_arg7]
  rw [e]; exact Host1.transpose_entry _ _ k j

/-- The second layer's bias, as a row. -/
theorem V5_v39 (j : Fin 256) : V5 m ρ c main_v39 (ix2 (0 : Fin 1) j) = a8 (ix1 j) := by
  have e : V5 m ρ c main_v39 = shapeCast S1x256 (a8) shapeCasts_S256_S1x256 := by
    dsimp only [V5, W5, hostOps2]; after_results; rw [Fold.W4_main_arg8]; rfl
  rw [e]; exact shapeCast_a_1a_apply _ _ (0 : Fin 1) j

/-- The root weights, transposed. -/
theorem V5_v40 (k j : Fin 256) : V5 m ρ c main_v40 (ix2 k j) = a9 (ix2 j k) := by
  have e : V5 m ρ c main_v40 = transpose S256x256 [1, 0] (a9) transposes_S256x256_S256x256_1_0 := by
    dsimp only [V5, W5, hostOps2]; after_results; rw [Fold.W4_main_arg9]
  rw [e]; exact Host1.transpose_entry _ _ k j

/-- The shortcut's weights, transposed. -/
theorem V5_v41 (k : Fin 128) (j : Fin 256) : V5 m ρ c main_v41 (ix2 k j) = a10 (ix2 j k) := by
  have e : V5 m ρ c main_v41 = transpose S128x256 [1, 0] (a10) transposes_S256x128_S128x256_1_0 := by
    dsimp only [V5, W5, hostOps2]; after_results; rw [Fold.W4_main_arg10]
  rw [e]; exact Host1.transpose_entry _ _ k j

/-- The shortcut's bias, as a row. -/
theorem V5_v42 (j : Fin 256) : V5 m ρ c main_v42 (ix2 (0 : Fin 1) j) = a11 (ix1 j) := by
  have e : V5 m ρ c main_v42 = shapeCast S1x256 (a11) shapeCasts_S256_S1x256 := by
    dsimp only [V5, W5, hostOps2]; after_results; rw [Fold.W4_main_arg11]; rfl
  rw [e]; exact shapeCast_a_1a_apply _ _ (0 : Fin 1) j

end Cert.KernelIdeal.Host2

end
-- ==== Proof.Stages.lean ====
/-
  The three dense stages of the network, each read at one entry of its result, on the extended reals.

  * Batch normalisation of a [10000, 128] array over its rows: column j's mean is the column's sum over 10000, its variance the
    mean of the squared deviations, and entry (r, j) is (x[r, j] - mean_j) * rsqrt(var_j + eps) * gamma_j + beta_j.
  * A mean-aggregation layer at one node: from the node's summed messages `ms`, its in-degree `cnt` and its own
    features `xn`, output feature j is (sum_k (ms_k / max(cnt, 1)) * wl[j, k] + bl_j) + sum_k xn_k * wr[j, k],
    followed in the first layer by the maximum with 0, and in the second by the shortcut sum_k x_k * ws[j, k] and its bias.
  The grouping of the additions is the one both programs use; nothing here assumes a finite entry.
-/
import Idealize.ShloMosaic.Lib.ValueIdx
import Idealize.ShloMosaic.PureOps.Ideal

noncomputable section

namespace Cert.Stages

open Idealize.ShloMosaic Idealize.ShloMosaic.ValueIdx

/-- The real 10000 (the number of rows), the variance's additive constant, 1 and 0, as the single-precision words both
    programs spell. -/
abbrev rowsC : EReal := Ideal.ofBits .f32 0x461C4000#32
abbrev epsC : EReal := Ideal.ofBits .f32 0x3727C5AC#32
abbrev oneC : EReal := Ideal.ofBits .f32 0x3F800000#32
abbrev zeroC : EReal := Ideal.ofBits .f32 0x00000000#32

/-- Column `j`'s mean over the 10000 rows. -/
def colMean (x : FVec Ideal ⟨2, ![10000, 128]⟩ .f32) (j : Fin 128) : EReal :=
  Ideal.div (∑ q : Fin 10000, x (ix2 q j)) rowsC

/-- Column `j`'s biased variance: the mean of the squared deviations from the column's mean. -/
def colVar (x : FVec Ideal ⟨2, ![10000, 128]⟩ .f32) (j : Fin 128) : EReal :=
  Ideal.div (∑ q : Fin 10000, (x (ix2 q j) - colMean x j) * (x (ix2 q j) - colMean x j)) rowsC

/-- Entry (r, j) of the normalised array. -/
def bnAt (x : FVec Ideal ⟨2, ![10000, 128]⟩ .f32) (g b : FVec Ideal ⟨1, ![128]⟩ .f32) (r : Fin 10000) (j : Fin 128) : EReal :=
  (x (ix2 r j) - colMean x j) * Ideal.rsqrt (colVar x j + epsC) * g (ix1 j) + b (ix1 j)

/-- One node of the first layer: `ms` the node's summed messages, `cnt` its in-degree, `xn` its own features. -/
def comb1Row (ms xn : Fin 128 → EReal) (cnt : EReal) (wl wr : FVec Ideal ⟨2, ![256, 128]⟩ .f32)
    (bl : FVec Ideal ⟨1, ![256]⟩ .f32) (j : Fin 256) : EReal :=
  max ((∑ k : Fin 128, Ideal.div (ms k) (max cnt oneC) * wl (ix2 j k)) + bl (ix1 j) + ∑ k : Fin 128, xn k * wr (ix2 j k)) zeroC

/-- One node of the second layer with the linear shortcut: `h` the node's first-layer output, `x` its input features. -/
def comb2Row (ms h : Fin 256 → EReal) (cnt : EReal) (x : Fin 128 → EReal) (wl wr : FVec Ideal ⟨2, ![256, 256]⟩ .f32)
    (ws : FVec Ideal ⟨2, ![256, 128]⟩ .f32) (bl bs : FVec Ideal ⟨1, ![256]⟩ .f32) (j : Fin 256) : EReal :=
  (∑ k : Fin 256, Ideal.div (ms k) (max cnt oneC) * wl (ix2 j k)) + bl (ix1 j) + (∑ k : Fin 256, h k * wr (ix2 j k))
    + (∑ k : Fin 128, x k * ws (ix2 j k)) + bs (ix1 j)

end Cert.Stages

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.KerStages.lean ====
/-
  The kernel's three bodies read at one entry of the block they store: each is the stage formula of `Stages` applied to the
  row of the blocks it loaded. The weight blocks arrive transposed ([in, out]) and the bias and scale blocks as 1 x n rows;
  the hypotheses say which [out, in] matrix and which vector they are. A change of float format is the identity here and a
  matrix product into a zero accumulator is the plain sum over the contracted axis.
-/
import proofs.«130562_j82076825026573_2_alg».proof.Proof.Gen.KernelIdeal.Skeleton
import proofs.«130562_j82076825026573_2_alg».proof.Proof.Stages
import proofs.«130562_j82076825026573_2_alg».proof.Proof.LibPlainProduct
import Idealize.ShloMosaic.Lib.ValueLayout

noncomputable section

namespace Cert.KerStages

open Cert.KernelIdeal Cert.KernelIdeal.Gen Idealize.ShloMosaic Idealize.ShloMosaic.ValueIdx Cert.Stages

/-- The sum over the rows of a [10000, 128] array, read at column `j`: the reduction's inserted index is `(q, j)`. -/
private theorem colSum_apply (x : FVec Ideal S10000x128 .f32) (h : S10000x128.Reduces [0] S128)
    (hφ : FKind.Formats .f32) (hacc : (0x00000000#32 : BitVec 32) = 0x00000000#32) (j : Fin 128) :
    multiReduction .add [0] S128 x 0x00000000#32 h hφ hacc (ix1 j) = ∑ q : Fin 10000, x (ix2 q j) := by
  refine (Ideal.multiReduction_add_single x 0x00000000#32 h hφ hacc (ix1 j)).trans ?_
  refine Finset.sum_congr rfl fun q _ => congrArg x ?_
  funext c
  refine Fin.ext ?_
  match c with
  | ⟨0, _⟩ => rfl
  | ⟨1, _⟩ => rfl

/-- A reciprocal square root at an index is the element's. -/
private theorem rsqrt_apply {s : Shape} {φ : FTy} (a : FVec Ideal s φ) (i : s.Idx) : rsqrt a i = Ideal.rsqrt (a i) := rfl

/-- An `[a, 1]` column broadcast to `[a, b]` reads, at `(p, c)`, the column's entry at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(p, c)` of a `[1000, 128]` by `[128, 256]` product into the zero accumulator: the sum over the 128 contracted coordinates. -/
private theorem prod128_apply {φ₁ φ₂ : FTy} (l : FVec Ideal S1000x128 φ₁) (r : FVec Ideal S128x256 φ₂) (p : Fin 1000) (c : Fin 256) :
    FloatOps.matmul dot_S1000x128_S128x256_S1000x256_1_0_0_1_n_n none l r (constant (F := Ideal) S1000x256 .f32 0x00000000#32) (ix2 p c)
      = ∑ k : Fin 128, l (ix2 p k) * r (ix2 k c) :=
  Cert.PlainProduct.matmul_zero_entry dot_S1000x128_S128x256_S1000x256_1_0_0_1_n_n rfl rfl
    (fun i q => by
      unfold DotDims.lhsIdx
      rw [dif_neg (show ¬(0 : Fin S1000x128.rank) ∈ dot_S1000x128_S128x256_S1000x256_1_0_0_1_n_n.lhsBatch by decide),
        dif_pos (show (0 : Fin S1000x128.rank) ∈ dot_S1000x128_S128x256_S1000x256_1_0_0_1_n_n.lhsNonContracting by decide)]
      rfl)
    (fun i q => dot_S1000x128_S128x256_S1000x256_1_0_0_1_n_n.lhsIdx_val_of_single rfl i q)
    (fun i q => dot_S1000x128_S128x256_S1000x256_1_0_0_1_n_n.rhsIdx_val_of_single rfl i q)
    (fun i q => by
      unfold DotDims.rhsIdx
      rw [dif_neg (show ¬(1 : Fin S128x256.rank) ∈ dot_S1000x128_S128x256_S1000x256_1_0_0_1_n_n.rhsBatch by decide),
        dif_pos (show (1 : Fin S128x256.rank) ∈ dot_S1000x128_S128x256_S1000x256_1_0_0_1_n_n.rhsNonContracting by decide)]
      rfl)
    l r p c

/-- Entry `(p, c)` of a `[1000, 256]` by `[256, 256]` product into the zero accumulator: the sum over the 256 contracted coordinates. -/
private theorem prod256_apply {φ₁ φ₂ : FTy} (l : FVec Ideal S1000x256 φ₁) (r : FVec Ideal S256x256 φ₂) (p : Fin 1000) (c : Fin 256) :
    FloatOps.matmul dot_S1000x256_S256x256_S1000x256_1_0_0_1_n_n none l r (constant (F := Ideal) S1000x256 .f32 0x00000000#32) (ix2 p c)
      = ∑ k : Fin 256, l (ix2 p k) * r (ix2 k c) :=
  Cert.PlainProduct.matmul_zero_entry dot_S1000x256_S256x256_S1000x256_1_0_0_1_n_n rfl rfl
    (fun i q => by
      unfold DotDims.lhsIdx
      rw [dif_neg (show ¬(0 : Fin S1000x256.rank) ∈ dot_S1000x256_S256x256_S1000x256_1_0_0_1_n_n.lhsBatch by decide),
        dif_pos (show (0 : Fin S1000x256.rank) ∈ dot_S1000x256_S256x256_S1000x256_1_0_0_1_n_n.lhsNonContracting by decide)]
      rfl)
    (fun i q => dot_S1000x256_S256x256_S1000x256_1_0_0_1_n_n.lhsIdx_val_of_single rfl i q)
    (fun i q => dot_S1000x256_S256x256_S1000x256_1_0_0_1_n_n.rhsIdx_val_of_single rfl i q)
    (fun i q => by
      unfold DotDims.rhsIdx
      rw [dif_neg (show ¬(1 : Fin S256x256.rank) ∈ dot_S1000x256_S256x256_S1000x256_1_0_0_1_n_n.rhsBatch by decide),
        dif_pos (show (1 : Fin S256x256.rank) ∈ dot_S1000x256_S256x256_S1000x256_1_0_0_1_n_n.rhsNonContracting by decide)]
      rfl)
    l r p c

/-- The normalisation body at entry (r, j) of the one block it stores. -/
theorem bn_payload (v0 : Vec Ideal S10000x128 .f32) (v17 v21 : Vec Ideal S1x128 .f32) (g b : FVec Ideal ⟨1, ![128]⟩ .f32)
    (hg : ∀ j : Fin 128, v17 (ix2 (0 : Fin 1) j) = g (ix1 j)) (hb : ∀ j : Fin 128, v21 (ix2 (0 : Fin 1) j) = b (ix1 j))
    (r : Fin 10000) (j : Fin 128) :
    k0_pay1 (F := Ideal) v0 v17 v21 (ix2 r j) = bnAt v0 g b r j := by
  unfold k0_pay1
  simp only [addf_apply, mulf_apply, subf_apply, divf_apply, rsqrt_apply, broadcastTo_1b_ab_apply, shapeCast_self,
    shapeCast_a_1a_apply, broadcast_apply, hg, hb]
  rw [colSum_apply, colSum_apply]
  simp only [mulf_apply, subf_apply, divf_apply, broadcastTo_1b_ab_apply, shapeCast_a_1a_apply, broadcast_apply]
  rw [colSum_apply]
  unfold bnAt colVar colMean
  rfl

/-- The first layer's body at entry (p, j) of a block of 1000 nodes. -/
theorem layer1_payload (v0 : Vec Ideal S1000x128 .f32) (v2 : Vec Ideal S1000x1 .f32) (v9 : Vec Ideal S1000x128 .f32)
    (v12 v15 : Vec Ideal S128x256 .f32) (v19 : Vec Ideal S1x256 .f32)
    (wl wr : FVec Ideal ⟨2, ![256, 128]⟩ .f32) (bl : FVec Ideal ⟨1, ![256]⟩ .f32)
    (h12 : ∀ (k : Fin 128) (j : Fin 256), v12 (ix2 k j) = wl (ix2 j k))
    (h15 : ∀ (k : Fin 128) (j : Fin 256), v15 (ix2 k j) = wr (ix2 j k))
    (h19 : ∀ j : Fin 256, v19 (ix2 (0 : Fin 1) j) = bl (ix1 j))
    (p : Fin 1000) (j : Fin 256) :
    k1_pay1 (F := Ideal) v0 v2 v9 v12 v15 v19 (ix2 p j)
      = comb1Row (fun k => v0 (ix2 p k)) (fun k => v9 (ix2 p k)) (v2 (ix2 p (0 : Fin 1))) wl wr bl j := by
  unfold k1_pay1
  simp only [matmul, addf_apply, maximumf_apply, divf_apply, truncf_apply, broadcastTo_1b_ab_apply,
    broadcastTo_a1_ab_apply, shapeCast_self, broadcast_apply, prod128_apply, h12, h15, h19]
  unfold comb1Row
  rfl

/-- The second layer's body at entry (p, j) of a block of 1000 nodes. -/
theorem layer2_payload (v0 : Vec Ideal S1000x256 .f32) (v2 : Vec Ideal S1000x1 .f32) (v9 : Vec Ideal S1000x256 .f32)
    (v12 : Vec Ideal S1000x128 .f32) (v14 v17 : Vec Ideal S256x256 .f32) (v20 : Vec Ideal S128x256 .f32)
    (v24 v32 : Vec Ideal S1x256 .f32)
    (wl wr : FVec Ideal ⟨2, ![256, 256]⟩ .f32) (ws : FVec Ideal ⟨2, ![256, 128]⟩ .f32) (bl bs : FVec Ideal ⟨1, ![256]⟩ .f32)
    (h14 : ∀ (k j : Fin 256), v14 (ix2 k j) = wl (ix2 j k))
    (h17 : ∀ (k j : Fin 256), v17 (ix2 k j) = wr (ix2 j k))
    (h20 : ∀ (k : Fin 128) (j : Fin 256), v20 (ix2 k j) = ws (ix2 j k))
    (h24 : ∀ j : Fin 256, v24 (ix2 (0 : Fin 1) j) = bl (ix1 j))
    (h32 : ∀ j : Fin 256, v32 (ix2 (0 : Fin 1) j) = bs (ix1 j))
    (p : Fin 1000) (j : Fin 256) :
    k2_pay1 (F := Ideal) v0 v2 v9 v12 v14 v17 v20 v24 v32 (ix2 p j)
      = comb2Row (fun k => v0 (ix2 p k)) (fun k => v9 (ix2 p k)) (v2 (ix2 p (0 : Fin 1))) (fun k => v12 (ix2 p k))
          wl wr ws bl bs j := by
  unfold k2_pay1
  simp only [matmul, addf_apply, maximumf_apply, divf_apply, truncf_apply, broadcastTo_1b_ab_apply,
    broadcastTo_a1_ab_apply, shapeCast_self, broadcast_apply, prod128_apply, prod256_apply, h14, h17, h20, h24, h32]
  unfold comb2Row
  rfl

end Cert.KerStages

end
-- ==== Proof.Norm.lean ====
/-
  The normalisation region: a single grid point, whose block of every array is the whole array — the [10000, 128] features,
  and the scale and the shift as 1 x 128 rows. What the point writes back is the whole of any array whose entry (r, j) is the
  normalisation formula of the features the region finds: the column's mean and biased variance over the 10000 rows, then
  (x[r, j] - mean_j) * rsqrt(var_j + eps) * scale_j + shift_j. The one block covers the array, so each of the two output
  arrays (the single-precision one and its half-precision copy, the same extended reals) ends as that array.
-/
import proofs.«130562_j82076825026573_2_alg».proof.Proof.Gen.KernelIdeal.Frame
import proofs.«130562_j82076825026573_2_alg».proof.Proof.KerStages
import Idealize.ShloMosaic.Lib.Pipeline.Value

set_option maxRecDepth 16384

noncomputable section

namespace Cert.KernelIdeal.Norm

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Stages

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window stays at the origin. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

section entry
variable (g b : FVec Ideal ⟨1, ![128]⟩ .f32)
variable (c : Dev nD)

/-- The point's block of the features is the whole array: its entry (p, k) is the array's entry (0 · 10000 + p, 0 · 128 + k). -/
theorem block0_eq (t : Fin cfg0.N) (p : Fin 10000) (k : Fin 128) :
    iblk0 V c 0 t (ix2 p k) = V c main_arg0 (ix2 p k) := by
  obtain ⟨e00, e01, e10, e11, e20, e21, e30, e31, e40, e41⟩ := idx_facts t
  show V c main_arg0 (((cfg0.win 0).blk t).view.emb (ix2 p k)) = V c main_arg0 (ix2 p k)
  refine congrArg _ (funext fun a => Fin.ext ?_)
  match a with
  | ⟨0, _⟩ => show win0_0.index t (0 : Fin 2) * 10000 + 1 * p.val = p.val; omega
  | ⟨1, _⟩ => show win0_0.index t (1 : Fin 2) * 128 + 1 * k.val = k.val; omega

/-- The body's value at entry (r, j) of the point's block is the normalisation formula of the features the region finds. -/
theorem block_entry
    (h1 : ∀ j : Fin 128, V c main_v4 (ix2 (0 : Fin 1) j) = g (ix1 j))
    (h2 : ∀ j : Fin 128, V c main_v5 (ix2 (0 : Fin 1) j) = b (ix1 j))
    (t : Fin cfg0.N) (r : Fin 10000) (j : Fin 128) :
    k0_pay1 (F := Ideal) (iblk0 V c 0 t) (iblk0 V c 1 t) (iblk0 V c 2 t) (ix2 r j) = bnAt (V c main_arg0) g b r j := by
  obtain ⟨e00, e01, e10, e11, e20, e21, e30, e31, e40, e41⟩ := idx_facts t
  have g0 : (iblk0 V c 0 t : FVec Ideal ⟨2, ![10000, 128]⟩ .f32) = V c main_arg0 := funext fun y => by
    obtain ⟨p, k, rfl⟩ : ∃ (p : Fin 10000) (k : Fin 128), y = ix2 p k := ⟨y 0, y 1, eq_ix2 y⟩
    exact block0_eq V c t p k
  have g1 : ∀ j : Fin 128, iblk0 V c 1 t (ix2 (0 : Fin 1) j) = g (ix1 j) := fun j => by
    refine Eq.trans ?_ (h1 j)
    show V c main_v4 (((cfg0.win 1).blk t).view.emb (ix2 (0 : Fin 1) j)) = V c main_v4 (ix2 (0 : Fin 1) j)
    refine congrArg _ (funext fun a => Fin.ext ?_)
    match a with
    | ⟨0, _⟩ => show win0_1.index t (0 : Fin 2) * 1 + 1 * 0 = 0; omega
    | ⟨1, _⟩ => show win0_1.index t (1 : Fin 2) * 128 + 1 * j.val = j.val; omega
  have g2 : ∀ j : Fin 128, iblk0 V c 2 t (ix2 (0 : Fin 1) j) = b (ix1 j) := fun j => by
    refine Eq.trans ?_ (h2 j)
    show V c main_v5 (((cfg0.win 2).blk t).view.emb (ix2 (0 : Fin 1) j)) = V c main_v5 (ix2 (0 : Fin 1) j)
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * j.val = j.val; omega
  refine (Cert.KerStages.bn_payload (iblk0 V c 0 t) (iblk0 V c 1 t) (iblk0 V c 2 t) g b g1 g2 r j).trans ?_
  exact congrArg (fun x : FVec Ideal ⟨2, ![10000, 128]⟩ .f32 => bnAt x g b r j) g0

/-- What the point writes back through output window 3 is its block of `G`, for any `G` whose entries are the formula. -/
theorem flushed3_eq (G : (⟨S10000x128, .f32⟩ : BufTy).Contents (Elt Ideal))
    (hG : ∀ (r : Fin 10000) (j : Fin 128), G (ix2 r j) = bnAt (V c main_arg0) g b r j)
    (h1 : ∀ j : Fin 128, V c main_v4 (ix2 (0 : Fin 1) j) = g (ix1 j))
    (h2 : ∀ j : Fin 128, V c main_v5 (ix2 (0 : Fin 1) j) = b (ix1 j))
    (t : Fin cfg0.N) :
    (dat0 V c).flushed 3 t = ((cfg0.win 3).blk t).view.read (Elt Ideal) G := by
  show (cfg0.win 3).cut (grid0.coords t) ((dat0 V c).after 3 t) = _
  rw [after0_3]
  unfold out0_3
  rw [View.canon_unit_zero hz]
  simp only [View.ld_unit_zero (S := S10000x128) hz, View.ld_unit_zero (S := S1x128) hz]
  obtain ⟨e00, e01, e10, e11, e20, e21, e30, e31, e40, e41⟩ := idx_facts t
  funext y
  obtain ⟨p, j, rfl⟩ : ∃ (p : Fin 10000) (j : Fin 128), y = ix2 p j := ⟨y 0, y 1, eq_ix2 y⟩
  show k0_pay1 (F := Ideal) (iblk0 V c 0 t) (iblk0 V c 1 t) (iblk0 V c 2 t) (ix2 p j)
    = G (((cfg0.win 3).blk t).view.emb (ix2 p j))
  rw [block_entry V g b c h1 h2 t p j, ← hG]
  refine congrArg G (funext fun a => Fin.ext ?_)
  match a with
  | ⟨0, _⟩ => show p.val = win0_3.index t (0 : Fin 2) * 10000 + 1 * p.val; omega
  | ⟨1, _⟩ => show j.val = win0_3.index t (1 : Fin 2) * 128 + 1 * j.val; omega

/-- The half-precision copy: the same extended reals through output window 4. -/
theorem flushed4_eq (G : (⟨S10000x128, .bf16⟩ : BufTy).Contents (Elt Ideal))
    (hG : ∀ (r : Fin 10000) (j : Fin 128), G (ix2 r j) = bnAt (V c main_arg0) g b r j)
    (h1 : ∀ j : Fin 128, V c main_v4 (ix2 (0 : Fin 1) j) = g (ix1 j))
    (h2 : ∀ j : Fin 128, V c main_v5 (ix2 (0 : Fin 1) j) = b (ix1 j))
    (t : Fin cfg0.N) :
    (dat0 V c).flushed 4 t = ((cfg0.win 4).blk t).view.read (Elt Ideal) G := by
  show (cfg0.win 4).cut (grid0.coords t) ((dat0 V c).after 4 t) = _
  rw [after0_4]
  unfold out0_4
  rw [View.canon_unit_zero hz]
  simp only [View.ld_unit_zero (S := S10000x128) hz, View.ld_unit_zero (S := S1x128) hz]
  obtain ⟨e00, e01, e10, e11, e20, e21, e30, e31, e40, e41⟩ := idx_facts t
  funext y
  obtain ⟨p, j, rfl⟩ : ∃ (p : Fin 10000) (j : Fin 128), y = ix2 p j := ⟨y 0, y 1, eq_ix2 y⟩
  show k0_pay1 (F := Ideal) (iblk0 V c 0 t) (iblk0 V c 1 t) (iblk0 V c 2 t) (ix2 p j)
    = G (((cfg0.win 4).blk t).view.emb (ix2 p j))
  rw [block_entry V g b c h1 h2 t p j, ← hG]
  refine congrArg G (funext fun a => Fin.ext ?_)
  match a with
  | ⟨0, _⟩ => show p.val = win0_4.index t (0 : Fin 2) * 10000 + 1 * p.val; omega
  | ⟨1, _⟩ => show j.val = win0_4.index t (1 : Fin 2) * 128 + 1 * j.val; omega

end entry

/-- An index of an output array is in the point's block iff each coordinate is in the block's range on its axis. -/
theorem mem_blk3 (t : Fin cfg0.N) (i : S10000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v6_0).slice (win0_3.rect t)).set ↔ _
  rw [View.set_slice_whole, Rect.mem_set_unit]
  exact Iff.rfl

theorem mem_blk4 (t : Fin cfg0.N) (i : S10000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v6_1).slice (win0_4.rect t)).set ↔ _
  rw [View.set_slice_whole, Rect.mem_set_unit]
  exact Iff.rfl

/-- The one block is the whole array: every index lies in the block of the grid's point. -/
theorem cover3 (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  obtain ⟨e00, e01, e10, e11, e20, e21, e30, e31, e40, e41⟩ := idx_facts t0_0
  refine ⟨t0_0, flush0_3 t0_0, ?_⟩
  rw [mem_blk3]
  intro a
  match a with
  | ⟨0, _⟩ => show win0_3.index t0_0 (0 : Fin 2) * 10000 ≤ (i 0).val ∧ (i 0).val < win0_3.index t0_0 (0 : Fin 2) * 10000 + 10000; omega
  | ⟨1, _⟩ => show win0_3.index t0_0 (1 : Fin 2) * 128 ≤ (i 1).val ∧ (i 1).val < win0_3.index t0_0 (1 : Fin 2) * 128 + 128; omega

theorem cover4 (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  obtain ⟨e00, e01, e10, e11, e20, e21, e30, e31, e40, e41⟩ := idx_facts t0_0
  refine ⟨t0_0, flush0_4 t0_0, ?_⟩
  rw [mem_blk4]
  intro a
  match a with
  | ⟨0, _⟩ => show win0_4.index t0_0 (0 : Fin 2) * 10000 ≤ (i 0).val ∧ (i 0).val < win0_4.index t0_0 (0 : Fin 2) * 10000 + 10000; omega
  | ⟨1, _⟩ => show win0_4.index t0_0 (1 : Fin 2) * 128 ≤ (i 1).val ∧ (i 1).val < win0_4.index t0_0 (1 : Fin 2) * 128 + 128; omega

/-- After the region the single-precision output array is `G`. -/
theorem final3 (g b : FVec Ideal ⟨1, ![128]⟩ .f32) (c : Dev nD) (G : (⟨S10000x128, .f32⟩ : BufTy).Contents (Elt Ideal))
    (hG : ∀ (r : Fin 10000) (j : Fin 128), G (ix2 r j) = bnAt (V c main_arg0) g b r j)
    (h1 : ∀ j : Fin 128, V c main_v4 (ix2 (0 : Fin 1) j) = g (ix1 j))
    (h2 : ∀ j : Fin 128, V c main_v5 (ix2 (0 : Fin 1) j) = b (ix1 j)) :
    (dat0 V c).arrAt 3 cfg0.N = G :=
  (dat0 V c).arrAt_eq_of_cover 3 G (fun t _ => flushed3_eq V g b c G hG h1 h2 t) cover3

/-- After the region the half-precision output array is the same `G`. -/
theorem final4 (g b : FVec Ideal ⟨1, ![128]⟩ .f32) (c : Dev nD) (G : (⟨S10000x128, .bf16⟩ : BufTy).Contents (Elt Ideal))
    (hG : ∀ (r : Fin 10000) (j : Fin 128), G (ix2 r j) = bnAt (V c main_arg0) g b r j)
    (h1 : ∀ j : Fin 128, V c main_v4 (ix2 (0 : Fin 1) j) = g (ix1 j))
    (h2 : ∀ j : Fin 128, V c main_v5 (ix2 (0 : Fin 1) j) = b (ix1 j)) :
    (dat0 V c).arrAt 4 cfg0.N = G :=
  (dat0 V c).arrAt_eq_of_cover 4 G (fun t _ => flushed4_eq V g b c G hG h1 h2 t) cover4

end Cert.KernelIdeal.Norm

end
-- ==== Proof.Layer1.lean ====
/-
  The first layer's region: ten grid points, point t taking rows 1000 t … 1000 t + 999 of the summed messages, the
  in-degrees and the normalised features, and the whole transposed weights and the bias row. What point t writes back is
  block t of any array whose entry (r, j) is the first-layer formula of row r of the arrays the region finds; the ten blocks
  tile the 10000 rows, so each of the two output arrays (the single-precision one and its half-precision copy, the same
  extended reals) ends as that array.
-/
import proofs.«130562_j82076825026573_2_alg».proof.Proof.Gen.KernelIdeal.Frame
import proofs.«130562_j82076825026573_2_alg».proof.Proof.KerStages
import Idealize.ShloMosaic.Lib.Pipeline.Value

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Stages

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows move with the output's row block, the weight and bias
    windows stay at the origin. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 9 ∧ win1_6.index t (1 : Fin 2) = 0
    ∧ win1_7.index t (0 : Fin 2) = win1_6.index t (0 : Fin 2) ∧ win1_7.index t (1 : Fin 2) = 0 :=
  (by decide +kernel : ∀ t : Fin grid1.N, _)

/-- Every row block is some point's. -/
theorem idx_onto : ∀ q : Fin 10, ∃ t : Fin cfg1.N, win1_6.index t (0 : Fin 2) = q.val :=
  (by decide +kernel : ∀ q : Fin 10, ∃ t : Fin grid1.N, win1_6.index t (0 : Fin 2) = q.val)

section entry
variable (wl wr : FVec Ideal ⟨2, ![256, 128]⟩ .f32) (bl : FVec Ideal ⟨1, ![256]⟩ .f32)
variable (c : Dev nD)

/-- The body's value at entry (p, j) of point t's block is the layer formula of row r = 1000 · (t's row block) + p. -/
theorem block_entry
    (h3 : ∀ (k : Fin 128) (j : Fin 256), V c main_v23 (ix2 k j) = wl (ix2 j k))
    (h5 : ∀ (k : Fin 128) (j : Fin 256), V c main_v25 (ix2 k j) = wr (ix2 j k))
    (h4 : ∀ j : Fin 256, V c main_v24 (ix2 (0 : Fin 1) j) = bl (ix1 j))
    (t : Fin cfg1.N) (p : Fin 1000) (j : Fin 256) (r : Fin 10000)
    (hr : r.val = win1_6.index t (0 : Fin 2) * 1000 + p.val) :
    k1_pay1 (F := Ideal) (iblk1 V c 0 t) (iblk1 V c 1 t) (iblk1 V c 2 t) (iblk1 V c 3 t) (iblk1 V c 5 t) (iblk1 V c 4 t) (ix2 p j)
      = comb1Row (fun k => V c main_v22 (ix2 r k)) (fun k => V c main_v6_0 (ix2 r k)) (V c main_v11 (ix2 r (0 : Fin 1))) wl wr bl j := by
  obtain ⟨e00, e01, e10, e11, e20, e21, e30, e31, e40, e41, e50, e51, e6le, e61, e70, e71⟩ := idx_facts t
  have g0 : ∀ k : Fin 128, iblk1 V c 0 t (ix2 p k) = V c main_v22 (ix2 r k) := fun k => by
    show V c main_v22 (((cfg1.win 0).blk t).view.emb (ix2 p k)) = V c main_v22 (ix2 r k)
    refine congrArg _ (funext fun a => Fin.ext ?_)
    match a with
    | ⟨0, _⟩ => show win1_0.index t (0 : Fin 2) * 1000 + 1 * p.val = r.val; omega
    | ⟨1, _⟩ => show win1_0.index t (1 : Fin 2) * 128 + 1 * k.val = k.val; omega
  have g2 : ∀ k : Fin 128, iblk1 V c 2 t (ix2 p k) = V c main_v6_0 (ix2 r k) := fun k => by
    show V c main_v6_0 (((cfg1.win 2).blk t).view.emb (ix2 p k)) = V c main_v6_0 (ix2 r k)
    refine congrArg _ (funext fun a => Fin.ext ?_)
    match a with
    | ⟨0, _⟩ => show win1_2.index t (0 : Fin 2) * 1000 + 1 * p.val = r.val; omega
    | ⟨1, _⟩ => show win1_2.index t (1 : Fin 2) * 128 + 1 * k.val = k.val; omega
  have g1 : iblk1 V c 1 t (ix2 p (0 : Fin 1)) = V c main_v11 (ix2 r (0 : Fin 1)) := by
    show V c main_v11 (((cfg1.win 1).blk t).view.emb (ix2 p (0 : Fin 1))) = V c main_v11 (ix2 r (0 : Fin 1))
    refine congrArg _ (funext fun a => Fin.ext ?_)
    match a with
    | ⟨0, _⟩ => show win1_1.index t (0 : Fin 2) * 1000 + 1 * p.val = r.val; omega
    | ⟨1, _⟩ => show win1_1.index t (1 : Fin 2) * 1 + 1 * 0 = 0; omega
  have g3 : ∀ (k : Fin 128) (j : Fin 256), iblk1 V c 3 t (ix2 k j) = wl (ix2 j k) := fun k j => by
    refine Eq.trans ?_ (h3 k j)
    show V c main_v23 (((cfg1.win 3).blk t).view.emb (ix2 k j)) = V c main_v23 (ix2 k j)
    refine congrArg _ (funext fun a => Fin.ext ?_)
    match a with
    | ⟨0, _⟩ => show win1_3.index t (0 : Fin 2) * 128 + 1 * k.val = k.val; omega
    | ⟨1, _⟩ => show win1_3.index t (1 : Fin 2) * 256 + 1 * j.val = j.val; omega
  have g5 : ∀ (k : Fin 128) (j : Fin 256), iblk1 V c 5 t (ix2 k j) = wr (ix2 j k) := fun k j => by
    refine Eq.trans ?_ (h5 k j)
    show V c main_v25 (((cfg1.win 5).blk t).view.emb (ix2 k j)) = V c main_v25 (ix2 k j)
    refine congrArg _ (funext fun a => Fin.ext ?_)
    match a with
    | ⟨0, _⟩ => show win1_5.index t (0 : Fin 2) * 128 + 1 * k.val = k.val; omega
    | ⟨1, _⟩ => show win1_5.index t (1 : Fin 2) * 256 + 1 * j.val = j.val; omega
  have g4 : ∀ j : Fin 256, iblk1 V c 4 t (ix2 (0 : Fin 1) j) = bl (ix1 j) := fun j => by
    refine Eq.trans ?_ (h4 j)
    show V c main_v24 (((cfg1.win 4).blk t).view.emb (ix2 (0 : Fin 1) j)) = V c main_v24 (ix2 (0 : Fin 1) j)
    refine congrArg _ (funext fun a => Fin.ext ?_)
    match a with
    | ⟨0, _⟩ => show win1_4.index t (0 : Fin 2) * 1 + 1 * 0 = 0; omega
    | ⟨1, _⟩ => show win1_4.index t (1 : Fin 2) * 256 + 1 * j.val = j.val; omega
  refine (Cert.KerStages.layer1_payload (iblk1 V c 0 t) (iblk1 V c 1 t) (iblk1 V c 2 t) (iblk1 V c 3 t) (iblk1 V c 5 t) (iblk1 V c 4 t)
    wl wr bl g3 g5 g4 p j).trans ?_
  rw [show (fun k : Fin 128 => iblk1 V c 0 t (ix2 p k)) = fun k => V c main_v22 (ix2 r k) from funext g0,
    show (fun k : Fin 128 => iblk1 V c 2 t (ix2 p k)) = fun k => V c main_v6_0 (ix2 r k) from funext g2, g1]

/-- What point t writes back through output window 6 is block t of `G`, for any `G` whose entries are the layer formula. -/
theorem flushed6_eq (G : (⟨S10000x256, .f32⟩ : BufTy).Contents (Elt Ideal))
    (hG : ∀ (r : Fin 10000) (j : Fin 256), G (ix2 r j)
      = comb1Row (fun k => V c main_v22 (ix2 r k)) (fun k => V c main_v6_0 (ix2 r k)) (V c main_v11 (ix2 r (0 : Fin 1))) wl wr bl j)
    (h3 : ∀ (k : Fin 128) (j : Fin 256), V c main_v23 (ix2 k j) = wl (ix2 j k))
    (h5 : ∀ (k : Fin 128) (j : Fin 256), V c main_v25 (ix2 k j) = wr (ix2 j k))
    (h4 : ∀ j : Fin 256, V c main_v24 (ix2 (0 : Fin 1) j) = bl (ix1 j))
    (t : Fin cfg1.N) :
    (dat1 V c).flushed 6 t = ((cfg1.win 6).blk t).view.read (Elt Ideal) G := by
  show (cfg1.win 6).cut (grid1.coords t) ((dat1 V c).after 6 t) = _
  rw [after1_6]
  unfold out1_6
  rw [View.canon_unit_zero hz]
  simp only [View.ld_unit_zero (S := S1000x128) hz, View.ld_unit_zero (S := S1000x1) hz, View.ld_unit_zero (S := S128x256) hz, View.ld_unit_zero (S := S1x256) hz]
  obtain ⟨e00, e01, e10, e11, e20, e21, e30, e31, e40, e41, e50, e51, e6le, e61, e70, e71⟩ := idx_facts t
  funext y
  obtain ⟨p, j, rfl⟩ : ∃ (p : Fin 1000) (j : Fin 256), y = ix2 p j := ⟨y 0, y 1, eq_ix2 y⟩
  have hrlt : win1_6.index t (0 : Fin 2) * 1000 + p.val < 10000 := by have := p.isLt; omega
  show k1_pay1 (F := Ideal) (iblk1 V c 0 t) (iblk1 V c 1 t) (iblk1 V c 2 t) (iblk1 V c 3 t) (iblk1 V c 5 t) (iblk1 V c 4 t) (ix2 p j)
    = G (((cfg1.win 6).blk t).view.emb (ix2 p j))
  rw [block_entry V wl wr bl c h3 h5 h4 t p j ⟨_, hrlt⟩ rfl, ← hG]
  refine congrArg G (funext fun a => Fin.ext ?_)
  match a with
  | ⟨0, _⟩ => show win1_6.index t (0 : Fin 2) * 1000 + p.val = win1_6.index t (0 : Fin 2) * 1000 + 1 * p.val; omega
  | ⟨1, _⟩ => show j.val = win1_6.index t (1 : Fin 2) * 256 + 1 * j.val; omega

/-- The half-precision copy: the same extended reals through output window 7. -/
theorem flushed7_eq (G : (⟨S10000x256, .bf16⟩ : BufTy).Contents (Elt Ideal))
    (hG : ∀ (r : Fin 10000) (j : Fin 256), G (ix2 r j)
      = comb1Row (fun k => V c main_v22 (ix2 r k)) (fun k => V c main_v6_0 (ix2 r k)) (V c main_v11 (ix2 r (0 : Fin 1))) wl wr bl j)
    (h3 : ∀ (k : Fin 128) (j : Fin 256), V c main_v23 (ix2 k j) = wl (ix2 j k))
    (h5 : ∀ (k : Fin 128) (j : Fin 256), V c main_v25 (ix2 k j) = wr (ix2 j k))
    (h4 : ∀ j : Fin 256, V c main_v24 (ix2 (0 : Fin 1) j) = bl (ix1 j))
    (t : Fin cfg1.N) :
    (dat1 V c).flushed 7 t = ((cfg1.win 7).blk t).view.read (Elt Ideal) G := by
  show (cfg1.win 7).cut (grid1.coords t) ((dat1 V c).after 7 t) = _
  rw [after1_7]
  unfold out1_7
  rw [View.canon_unit_zero hz]
  simp only [View.ld_unit_zero (S := S1000x128) hz, View.ld_unit_zero (S := S1000x1) hz, View.ld_unit_zero (S := S128x256) hz, View.ld_unit_zero (S := S1x256) hz]
  obtain ⟨e00, e01, e10, e11, e20, e21, e30, e31, e40, e41, e50, e51, e6le, e61, e70, e71⟩ := idx_facts t
  funext y
  obtain ⟨p, j, rfl⟩ : ∃ (p : Fin 1000) (j : Fin 256), y = ix2 p j := ⟨y 0, y 1, eq_ix2 y⟩
  have hrlt : win1_6.index t (0 : Fin 2) * 1000 + p.val < 10000 := by have := p.isLt; omega
  show k1_pay1 (F := Ideal) (iblk1 V c 0 t) (iblk1 V c 1 t) (iblk1 V c 2 t) (iblk1 V c 3 t) (iblk1 V c 5 t) (iblk1 V c 4 t) (ix2 p j)
    = G (((cfg1.win 7).blk t).view.emb (ix2 p j))
  rw [block_entry V wl wr bl c h3 h5 h4 t p j ⟨_, hrlt⟩ rfl, ← hG]
  refine congrArg G (funext fun a => Fin.ext ?_)
  match a with
  | ⟨0, _⟩ => show win1_6.index t (0 : Fin 2) * 1000 + p.val = win1_7.index t (0 : Fin 2) * 1000 + 1 * p.val; omega
  | ⟨1, _⟩ => show j.val = win1_7.index t (1 : Fin 2) * 256 + 1 * j.val; omega

end entry

/-- An index of an output array is in point t's block iff each coordinate is in the block's range on its axis. -/
theorem mem_blk6 (t : Fin cfg1.N) (i : S10000x256.Idx) :
    i ∈ ((cfg1.win 6).blk t).view.set ↔ ∀ a : Fin 2, win1_6.index t a * S1000x256.size a ≤ (i a).val ∧ (i a).val < win1_6.index t a * S1000x256.size a + S1000x256.size a := by
  show i ∈ ((View.whole main_v26_0).slice (win1_6.rect t)).set ↔ _
  rw [View.set_slice_whole, Rect.mem_set_unit]
  exact Iff.rfl

theorem mem_blk7 (t : Fin cfg1.N) (i : S10000x256.Idx) :
    i ∈ ((cfg1.win 7).blk t).view.set ↔ ∀ a : Fin 2, win1_7.index t a * S1000x256.size a ≤ (i a).val ∧ (i a).val < win1_7.index t a * S1000x256.size a + S1000x256.size a := by
  show i ∈ ((View.whole main_v26_1).slice (win1_7.rect t)).set ↔ _
  rw [View.set_slice_whole, Rect.mem_set_unit]
  exact Iff.rfl

/-- The ten row blocks tile the 10000 rows: row r lies in the block of the point whose row block is r / 1000. -/
theorem cover6 (i : S10000x256.Idx) : ∃ t : Fin cfg1.N, (cfg1.win 6).flush t = true ∧ i ∈ ((cfg1.win 6).blk t).view.set := by
  have hi0 : (i 0).val < 10000 := (i 0).isLt
  have hi1 : (i 1).val < 256 := (i 1).isLt
  obtain ⟨t, ht⟩ := idx_onto ⟨(i 0).val / 1000, by omega⟩
  have q0 : win1_6.index t (0 : Fin 2) = (i 0).val / 1000 := ht
  obtain ⟨e00, e01, e10, e11, e20, e21, e30, e31, e40, e41, e50, e51, e6le, e61, e70, e71⟩ := idx_facts t
  refine ⟨t, flush1_6 t, ?_⟩
  rw [mem_blk6]
  intro a
  match a with
  | ⟨0, _⟩ => show win1_6.index t (0 : Fin 2) * 1000 ≤ (i 0).val ∧ (i 0).val < win1_6.index t (0 : Fin 2) * 1000 + 1000; omega
  | ⟨1, _⟩ => show win1_6.index t (1 : Fin 2) * 256 ≤ (i 1).val ∧ (i 1).val < win1_6.index t (1 : Fin 2) * 256 + 256; omega

theorem cover7 (i : S10000x256.Idx) : ∃ t : Fin cfg1.N, (cfg1.win 7).flush t = true ∧ i ∈ ((cfg1.win 7).blk t).view.set := by
  have hi0 : (i 0).val < 10000 := (i 0).isLt
  have hi1 : (i 1).val < 256 := (i 1).isLt
  obtain ⟨t, ht⟩ := idx_onto ⟨(i 0).val / 1000, by omega⟩
  have q0 : win1_6.index t (0 : Fin 2) = (i 0).val / 1000 := ht
  obtain ⟨e00, e01, e10, e11, e20, e21, e30, e31, e40, e41, e50, e51, e6le, e61, e70, e71⟩ := idx_facts t
  refine ⟨t, flush1_7 t, ?_⟩
  rw [mem_blk7]
  intro a
  match a with
  | ⟨0, _⟩ => show win1_7.index t (0 : Fin 2) * 1000 ≤ (i 0).val ∧ (i 0).val < win1_7.index t (0 : Fin 2) * 1000 + 1000; omega
  | ⟨1, _⟩ => show win1_7.index t (1 : Fin 2) * 256 ≤ (i 1).val ∧ (i 1).val < win1_7.index t (1 : Fin 2) * 256 + 256; omega

/-- After the region the single-precision output array is `G`. -/
theorem final6 (wl wr : FVec Ideal ⟨2, ![256, 128]⟩ .f32) (bl : FVec Ideal ⟨1, ![256]⟩ .f32) (c : Dev nD)
    (G : (⟨S10000x256, .f32⟩ : BufTy).Contents (Elt Ideal))
    (hG : ∀ (r : Fin 10000) (j : Fin 256), G (ix2 r j)
      = comb1Row (fun k => V c main_v22 (ix2 r k)) (fun k => V c main_v6_0 (ix2 r k)) (V c main_v11 (ix2 r (0 : Fin 1))) wl wr bl j)
    (h3 : ∀ (k : Fin 128) (j : Fin 256), V c main_v23 (ix2 k j) = wl (ix2 j k))
    (h5 : ∀ (k : Fin 128) (j : Fin 256), V c main_v25 (ix2 k j) = wr (ix2 j k))
    (h4 : ∀ j : Fin 256, V c main_v24 (ix2 (0 : Fin 1) j) = bl (ix1 j)) :
    (dat1 V c).arrAt 6 cfg1.N = G :=
  (dat1 V c).arrAt_eq_of_cover 6 G (fun t _ => flushed6_eq V wl wr bl c G hG h3 h5 h4 t) cover6

/-- After the region the half-precision output array is the same `G`. -/
theorem final7 (wl wr : FVec Ideal ⟨2, ![256, 128]⟩ .f32) (bl : FVec Ideal ⟨1, ![256]⟩ .f32) (c : Dev nD)
    (G : (⟨S10000x256, .bf16⟩ : BufTy).Contents (Elt Ideal))
    (hG : ∀ (r : Fin 10000) (j : Fin 256), G (ix2 r j)
      = comb1Row (fun k => V c main_v22 (ix2 r k)) (fun k => V c main_v6_0 (ix2 r k)) (V c main_v11 (ix2 r (0 : Fin 1))) wl wr bl j)
    (h3 : ∀ (k : Fin 128) (j : Fin 256), V c main_v23 (ix2 k j) = wl (ix2 j k))
    (h5 : ∀ (k : Fin 128) (j : Fin 256), V c main_v25 (ix2 k j) = wr (ix2 j k))
    (h4 : ∀ j : Fin 256, V c main_v24 (ix2 (0 : Fin 1) j) = bl (ix1 j)) :
    (dat1 V c).arrAt 7 cfg1.N = G :=
  (dat1 V c).arrAt_eq_of_cover 7 G (fun t _ => flushed7_eq V wl wr bl c G hG h3 h5 h4 t) cover7

end Cert.KernelIdeal.Layer1

end
-- ==== Proof.Layer2.lean ====
/-
  The second layer's region: ten grid points, point t taking rows 1000 t … 1000 t + 999 of the summed messages, the
  in-degrees, the first layer's output and the input features, and the whole transposed weights (aggregation, self and
  shortcut) and the two bias rows. What point t writes back is block t of any array whose entry (r, j) is the second-layer
  formula (with the linear shortcut) of row r of the arrays the region finds; the ten blocks tile the 10000 rows, so the
  output array ends as that array.
-/
import proofs.«130562_j82076825026573_2_alg».proof.Proof.Gen.KernelIdeal.Frame
import proofs.«130562_j82076825026573_2_alg».proof.Proof.KerStages
import Idealize.ShloMosaic.Lib.Pipeline.Value

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Stages

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the four row-blocked input windows move with the output's row block, the
    weight and bias windows stay at the origin. -/
theorem idx_facts : ∀ t : Fin cfg2.N,
    win2_0.index t (0 : Fin 2) = win2_9.index t (0 : Fin 2) ∧ win2_0.index t (1 : Fin 2) = 0
    ∧ win2_1.index t (0 : Fin 2) = win2_9.index t (0 : Fin 2) ∧ win2_1.index t (1 : Fin 2) = 0
    ∧ win2_2.index t (0 : Fin 2) = win2_9.index t (0 : Fin 2) ∧ win2_2.index t (1 : Fin 2) = 0
    ∧ win2_3.index t (0 : Fin 2) = win2_9.index t (0 : Fin 2) ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) ≤ 9 ∧ win2_9.index t (1 : Fin 2) = 0 :=
  (by decide +kernel : ∀ t : Fin grid2.N, _)

/-- Every row block is some point's. -/
theorem idx_onto : ∀ q : Fin 10, ∃ t : Fin cfg2.N, win2_9.index t (0 : Fin 2) = q.val :=
  (by decide +kernel : ∀ q : Fin 10, ∃ t : Fin grid2.N, win2_9.index t (0 : Fin 2) = q.val)

section entry
variable (wl wr : FVec Ideal ⟨2, ![256, 256]⟩ .f32) (ws : FVec Ideal ⟨2, ![256, 128]⟩ .f32)
  (bl bs : FVec Ideal ⟨1, ![256]⟩ .f32)
variable (c : Dev nD)

/-- The body's value at entry (p, j) of point t's block is the layer formula of row r = 1000 · (t's row block) + p. -/
theorem block_entry
    (h4 : ∀ (k j : Fin 256), V c main_v38 (ix2 k j) = wl (ix2 j k))
    (h6 : ∀ (k j : Fin 256), V c main_v40 (ix2 k j) = wr (ix2 j k))
    (h7 : ∀ (k : Fin 128) (j : Fin 256), V c main_v41 (ix2 k j) = ws (ix2 j k))
    (h5 : ∀ j : Fin 256, V c main_v39 (ix2 (0 : Fin 1) j) = bl (ix1 j))
    (h8 : ∀ j : Fin 256, V c main_v42 (ix2 (0 : Fin 1) j) = bs (ix1 j))
    (t : Fin cfg2.N) (p : Fin 1000) (j : Fin 256) (r : Fin 10000)
    (hr : r.val = win2_9.index t (0 : Fin 2) * 1000 + p.val) :
    k2_pay1 (F := Ideal) (iblk2 V c 0 t) (iblk2 V c 1 t) (iblk2 V c 2 t) (iblk2 V c 3 t) (iblk2 V c 4 t) (iblk2 V c 6 t)
        (iblk2 V c 7 t) (iblk2 V c 5 t) (iblk2 V c 8 t) (ix2 p j)
      = comb2Row (fun k => V c main_v37 (ix2 r k)) (fun k => V c main_v26_0 (ix2 r k)) (V c main_v11 (ix2 r (0 : Fin 1)))
          (fun k => V c main_arg0 (ix2 r k)) wl wr ws bl bs j := by
  obtain ⟨e00, e01, e10, e11, e20, e21, e30, e31, e40, e41, e50, e51, e60, e61, e70, e71, e80, e81, e9le, e91⟩ := idx_facts t
  have g0 : ∀ k : Fin 256, iblk2 V c 0 t (ix2 p k) = V c main_v37 (ix2 r k) := fun k => by
    show V c main_v37 (((cfg2.win 0).blk t).view.emb (ix2 p k)) = V c main_v37 (ix2 r k)
    refine congrArg _ (funext fun a => Fin.ext ?_)
    match a with
    | ⟨0, _⟩ => show win2_0.index t (0 : Fin 2) * 1000 + 1 * p.val = r.val; omega
    | ⟨1, _⟩ => show win2_0.index t (1 : Fin 2) * 256 + 1 * k.val = k.val; omega
  have g2 : ∀ k : Fin 256, iblk2 V c 2 t (ix2 p k) = V c main_v26_0 (ix2 r k) := fun k => by
    show V c main_v26_0 (((cfg2.win 2).blk t).view.emb (ix2 p k)) = V c main_v26_0 (ix2 r k)
    refine congrArg _ (funext fun a => Fin.ext ?_)
    match a with
    | ⟨0, _⟩ => show win2_2.index t (0 : Fin 2) * 1000 + 1 * p.val = r.val; omega
    | ⟨1, _⟩ => show win2_2.index t (1 : Fin 2) * 256 + 1 * k.val = k.val; omega
  have g3 : ∀ k : Fin 128, iblk2 V c 3 t (ix2 p k) = V c main_arg0 (ix2 r k) := fun k => by
    show V c main_arg0 (((cfg2.win 3).blk t).view.emb (ix2 p k)) = V c main_arg0 (ix2 r k)
    refine congrArg _ (funext fun a => Fin.ext ?_)
    match a with
    | ⟨0, _⟩ => show win2_3.index t (0 : Fin 2) * 1000 + 1 * p.val = r.val; omega
    | ⟨1, _⟩ => show win2_3.index t (1 : Fin 2) * 128 + 1 * k.val = k.val; omega
  have g1 : iblk2 V c 1 t (ix2 p (0 : Fin 1)) = V c main_v11 (ix2 r (0 : Fin 1)) := by
    show V c main_v11 (((cfg2.win 1).blk t).view.emb (ix2 p (0 : Fin 1))) = V c main_v11 (ix2 r (0 : Fin 1))
    refine congrArg _ (funext fun a => Fin.ext ?_)
    match a with
    | ⟨0, _⟩ => show win2_1.index t (0 : Fin 2) * 1000 + 1 * p.val = r.val; omega
    | ⟨1, _⟩ => show win2_1.index t (1 : Fin 2) * 1 + 1 * 0 = 0; omega
  have g4 : ∀ (k j : Fin 256), iblk2 V c 4 t (ix2 k j) = wl (ix2 j k) := fun k j => by
    refine Eq.trans ?_ (h4 k j)
    show V c main_v38 (((cfg2.win 4).blk t).view.emb (ix2 k j)) = V c main_v38 (ix2 k j)
    refine congrArg _ (funext fun a => Fin.ext ?_)
    match a with
    | ⟨0, _⟩ => show win2_4.index t (0 : Fin 2) * 256 + 1 * k.val = k.val; omega
    | ⟨1, _⟩ => show win2_4.index t (1 : Fin 2) * 256 + 1 * j.val = j.val; omega
  have g6 : ∀ (k j : Fin 256), iblk2 V c 6 t (ix2 k j) = wr (ix2 j k) := fun k j => by
    refine Eq.trans ?_ (h6 k j)
    show V c main_v40 (((cfg2.win 6).blk t).view.emb (ix2 k j)) = V c main_v40 (ix2 k j)
    refine congrArg _ (funext fun a => Fin.ext ?_)
    match a with
    | ⟨0, _⟩ => show win2_6.index t (0 : Fin 2) * 256 + 1 * k.val = k.val; omega
    | ⟨1, _⟩ => show win2_6.index t (1 : Fin 2) * 256 + 1 * j.val = j.val; omega
  have g7 : ∀ (k : Fin 128) (j : Fin 256), iblk2 V c 7 t (ix2 k j) = ws (ix2 j k) := fun k j => by
    refine Eq.trans ?_ (h7 k j)
    show V c main_v41 (((cfg2.win 7).blk t).view.emb (ix2 k j)) = V c main_v41 (ix2 k j)
    refine congrArg _ (funext fun a => Fin.ext ?_)
    match a with
    | ⟨0, _⟩ => show win2_7.index t (0 : Fin 2) * 128 + 1 * k.val = k.val; omega
    | ⟨1, _⟩ => show win2_7.index t (1 : Fin 2) * 256 + 1 * j.val = j.val; omega
  have g5 : ∀ j : Fin 256, iblk2 V c 5 t (ix2 (0 : Fin 1) j) = bl (ix1 j) := fun j => by
    refine Eq.trans ?_ (h5 j)
    show V c main_v39 (((cfg2.win 5).blk t).view.emb (ix2 (0 : Fin 1) j)) = V c main_v39 (ix2 (0 : Fin 1) j)
    refine congrArg _ (funext fun a => Fin.ext ?_)
    match a with
    | ⟨0, _⟩ => show win2_5.index t (0 : Fin 2) * 1 + 1 * 0 = 0; omega
    | ⟨1, _⟩ => show win2_5.index t (1 : Fin 2) * 256 + 1 * j.val = j.val; omega
  have g8 : ∀ j : Fin 256, iblk2 V c 8 t (ix2 (0 : Fin 1) j) = bs (ix1 j) := fun j => by
    refine Eq.trans ?_ (h8 j)
    show V c main_v42 (((cfg2.win 8).blk t).view.emb (ix2 (0 : Fin 1) j)) = V c main_v42 (ix2 (0 : Fin 1) j)
    refine congrArg _ (funext fun a => Fin.ext ?_)
    match a with
    | ⟨0, _⟩ => show win2_8.index t (0 : Fin 2) * 1 + 1 * 0 = 0; omega
    | ⟨1, _⟩ => show win2_8.index t (1 : Fin 2) * 256 + 1 * j.val = j.val; omega
  refine (Cert.KerStages.layer2_payload (iblk2 V c 0 t) (iblk2 V c 1 t) (iblk2 V c 2 t) (iblk2 V c 3 t) (iblk2 V c 4 t)
    (iblk2 V c 6 t) (iblk2 V c 7 t) (iblk2 V c 5 t) (iblk2 V c 8 t) wl wr ws bl bs g4 g6 g7 g5 g8 p j).trans ?_
  rw [show (fun k : Fin 256 => iblk2 V c 0 t (ix2 p k)) = fun k => V c main_v37 (ix2 r k) from funext g0,
    show (fun k : Fin 256 => iblk2 V c 2 t (ix2 p k)) = fun k => V c main_v26_0 (ix2 r k) from funext g2,
    show (fun k : Fin 128 => iblk2 V c 3 t (ix2 p k)) = fun k => V c main_arg0 (ix2 r k) from funext g3, g1]

/-- What point t writes back through output window 9 is block t of `G`, for any `G` whose entries are the layer formula. -/
theorem flushed9_eq (G : (⟨S10000x256, .f32⟩ : BufTy).Contents (Elt Ideal))
    (hG : ∀ (r : Fin 10000) (j : Fin 256), G (ix2 r j)
      = comb2Row (fun k => V c main_v37 (ix2 r k)) (fun k => V c main_v26_0 (ix2 r k)) (V c main_v11 (ix2 r (0 : Fin 1)))
          (fun k => V c main_arg0 (ix2 r k)) wl wr ws bl bs j)
    (h4 : ∀ (k j : Fin 256), V c main_v38 (ix2 k j) = wl (ix2 j k))
    (h6 : ∀ (k j : Fin 256), V c main_v40 (ix2 k j) = wr (ix2 j k))
    (h7 : ∀ (k : Fin 128) (j : Fin 256), V c main_v41 (ix2 k j) = ws (ix2 j k))
    (h5 : ∀ j : Fin 256, V c main_v39 (ix2 (0 : Fin 1) j) = bl (ix1 j))
    (h8 : ∀ j : Fin 256, V c main_v42 (ix2 (0 : Fin 1) j) = bs (ix1 j))
    (t : Fin cfg2.N) :
    (dat2 V c).flushed 9 t = ((cfg2.win 9).blk t).view.read (Elt Ideal) G := by
  show (cfg2.win 9).cut (grid2.coords t) ((dat2 V c).after 9 t) = _
  rw [after2_9]
  unfold out2_9
  rw [View.canon_unit_zero hz]
  simp only [View.ld_unit_zero (S := S1000x256) hz, View.ld_unit_zero (S := S1000x1) hz, View.ld_unit_zero (S := S1000x128) hz,
    View.ld_unit_zero (S := S256x256) hz, View.ld_unit_zero (S := S128x256) hz, View.ld_unit_zero (S := S1x256) hz]
  obtain ⟨e00, e01, e10, e11, e20, e21, e30, e31, e40, e41, e50, e51, e60, e61, e70, e71, e80, e81, e9le, e91⟩ := idx_facts t
  funext y
  obtain ⟨p, j, rfl⟩ : ∃ (p : Fin 1000) (j : Fin 256), y = ix2 p j := ⟨y 0, y 1, eq_ix2 y⟩
  have hrlt : win2_9.index t (0 : Fin 2) * 1000 + p.val < 10000 := by have := p.isLt; omega
  show k2_pay1 (F := Ideal) (iblk2 V c 0 t) (iblk2 V c 1 t) (iblk2 V c 2 t) (iblk2 V c 3 t) (iblk2 V c 4 t) (iblk2 V c 6 t)
      (iblk2 V c 7 t) (iblk2 V c 5 t) (iblk2 V c 8 t) (ix2 p j)
    = G (((cfg2.win 9).blk t).view.emb (ix2 p j))
  rw [block_entry V wl wr ws bl bs c h4 h6 h7 h5 h8 t p j ⟨_, hrlt⟩ rfl, ← hG]
  refine congrArg G (funext fun a => Fin.ext ?_)
  match a with
  | ⟨0, _⟩ => show win2_9.index t (0 : Fin 2) * 1000 + p.val = win2_9.index t (0 : Fin 2) * 1000 + 1 * p.val; omega
  | ⟨1, _⟩ => show j.val = win2_9.index t (1 : Fin 2) * 256 + 1 * j.val; omega

end entry

/-- An index of the output array is in point t's block iff each coordinate is in the block's range on its axis. -/
theorem mem_blk9 (t : Fin cfg2.N) (i : S10000x256.Idx) :
    i ∈ ((cfg2.win 9).blk t).view.set ↔ ∀ a : Fin 2, win2_9.index t a * S1000x256.size a ≤ (i a).val ∧ (i a).val < win2_9.index t a * S1000x256.size a + S1000x256.size a := by
  show i ∈ ((View.whole main_v43).slice (win2_9.rect t)).set ↔ _
  rw [View.set_slice_whole, Rect.mem_set_unit]
  exact Iff.rfl

/-- The ten row blocks tile the 10000 rows: row r lies in the block of the point whose row block is r / 1000. -/
theorem cover9 (i : S10000x256.Idx) : ∃ t : Fin cfg2.N, (cfg2.win 9).flush t = true ∧ i ∈ ((cfg2.win 9).blk t).view.set := by
  have hi0 : (i 0).val < 10000 := (i 0).isLt
  have hi1 : (i 1).val < 256 := (i 1).isLt
  obtain ⟨t, ht⟩ := idx_onto ⟨(i 0).val / 1000, by omega⟩
  have q0 : win2_9.index t (0 : Fin 2) = (i 0).val / 1000 := ht
  obtain ⟨e00, e01, e10, e11, e20, e21, e30, e31, e40, e41, e50, e51, e60, e61, e70, e71, e80, e81, e9le, e91⟩ := idx_facts t
  refine ⟨t, flush2_9 t, ?_⟩
  rw [mem_blk9]
  intro a
  match a with
  | ⟨0, _⟩ => show win2_9.index t (0 : Fin 2) * 1000 ≤ (i 0).val ∧ (i 0).val < win2_9.index t (0 : Fin 2) * 1000 + 1000; omega
  | ⟨1, _⟩ => show win2_9.index t (1 : Fin 2) * 256 ≤ (i 1).val ∧ (i 1).val < win2_9.index t (1 : Fin 2) * 256 + 256; omega

/-- After the region the output array is `G`. -/
theorem final9 (wl wr : FVec Ideal ⟨2, ![256, 256]⟩ .f32) (ws : FVec Ideal ⟨2, ![256, 128]⟩ .f32) (bl bs : FVec Ideal ⟨1, ![256]⟩ .f32) (c : Dev nD)
    (G : (⟨S10000x256, .f32⟩ : BufTy).Contents (Elt Ideal))
    (hG : ∀ (r : Fin 10000) (j : Fin 256), G (ix2 r j)
      = comb2Row (fun k => V c main_v37 (ix2 r k)) (fun k => V c main_v26_0 (ix2 r k)) (V c main_v11 (ix2 r (0 : Fin 1))) (fun k => V c main_arg0 (ix2 r k)) wl wr ws bl bs j)
    (h4 : ∀ (k j : Fin 256), V c main_v38 (ix2 k j) = wl (ix2 j k))
    (h6 : ∀ (k j : Fin 256), V c main_v40 (ix2 k j) = wr (ix2 j k))
    (h7 : ∀ (k : Fin 128) (j : Fin 256), V c main_v41 (ix2 k j) = ws (ix2 j k))
    (h5 : ∀ j : Fin 256, V c main_v39 (ix2 (0 : Fin 1) j) = bl (ix1 j))
    (h8 : ∀ j : Fin 256, V c main_v42 (ix2 (0 : Fin 1) j) = bs (ix1 j)) :
    (dat2 V c).arrAt 9 cfg2.N = G :=
  (dat2 V c).arrAt_eq_of_cover 9 G (fun t _ => flushed9_eq V wl wr ws bl bs c G hG h4 h6 h7 h5 h8 t) cover9

end Cert.KernelIdeal.Layer2

end
-- ==== Proof.RefStages.lean ====
/-
  The reference's three dense stages read at one entry: its normalised array, its first layer's output and its result are,
  at entry (r, j), the stage formulas of `Stages` applied to row r of what the stage reads. The edge gather and the
  segment sums stay the unopened arrays the reference's own stages name.
-/
import proofs.«130562_j82076825026573_2_alg».proof.Proof.Gen.ReferenceIdeal.Read
import proofs.«130562_j82076825026573_2_alg».proof.Proof.Stages

noncomputable section

namespace Cert.RefStages

open Cert.ReferenceIdeal Cert.ReferenceIdeal.Gen Cert.ReferenceIdeal.Read Idealize.ShloMosaic Idealize.ShloMosaic.ValueIdx Cert.Stages

variable (x0 : (⟨S10000x128, .f32⟩ : BufTy).Contents (Elt Ideal)) (x1 : (⟨S2x640000, .i32⟩ : BufTy).Contents (Elt Ideal))
  (x2 x3 : (⟨S128, .f32⟩ : BufTy).Contents (Elt Ideal)) (x4 : (⟨S256x128, .f32⟩ : BufTy).Contents (Elt Ideal))
  (x5 : (⟨S256, .f32⟩ : BufTy).Contents (Elt Ideal)) (x6 : (⟨S256x128, .f32⟩ : BufTy).Contents (Elt Ideal))
  (x7 : (⟨S256x256, .f32⟩ : BufTy).Contents (Elt Ideal)) (x8 : (⟨S256, .f32⟩ : BufTy).Contents (Elt Ideal))
  (x9 : (⟨S256x256, .f32⟩ : BufTy).Contents (Elt Ideal)) (x10 : (⟨S256x128, .f32⟩ : BufTy).Contents (Elt Ideal))
  (x11 : (⟨S256, .f32⟩ : BufTy).Contents (Elt Ideal))

/-! ### Batch normalisation -/

/-- The column sums run over the rows of column `j`. -/
private theorem idx4_ix (j : Fin 128) (k : Fin 10000) : idx_main_v4 (ix1 j) k = ix2 k j :=
  funext fun a => Fin.ext (by match a with | ⟨0, _⟩ => rfl | ⟨1, _⟩ => rfl)
private theorem idx11_ix (j : Fin 128) (k : Fin 10000) : idx_main_v11 (ix1 j) k = ix2 k j :=
  funext fun a => Fin.ext (by match a with | ⟨0, _⟩ => rfl | ⟨1, _⟩ => rfl)

/-- A per-column vector broadcast along the rows is read, at entry (q, j), at column `j`. -/
private theorem idx78_ix (q : Fin 10000) (j : Fin 128) : idx_main_v7 (idx_main_v8 (ix2 q j)) = ix1 j :=
  funext fun a => Fin.ext (by match a with | ⟨0, _⟩ => rfl)
private theorem idx1415_ix (q : Fin 10000) (j : Fin 128) : idx_main_v14 (idx_main_v15 (ix2 q j)) = ix1 j :=
  funext fun a => Fin.ext (by match a with | ⟨0, _⟩ => rfl)
private theorem idx2021_ix (q : Fin 10000) (j : Fin 128) : idx_main_v20 (idx_main_v21 (ix2 q j)) = ix1 j :=
  funext fun a => Fin.ext (by match a with | ⟨0, _⟩ => rfl)
private theorem idx2324_ix (q : Fin 10000) (j : Fin 128) : idx_main_v23 (idx_main_v24 (ix2 q j)) = ix1 j :=
  funext fun a => Fin.ext (by match a with | ⟨0, _⟩ => rfl)
private theorem idx2627_ix (q : Fin 10000) (j : Fin 128) : idx_main_v26 (idx_main_v27 (ix2 q j)) = ix1 j :=
  funext fun a => Fin.ext (by match a with | ⟨0, _⟩ => rfl)

/-- The reference's column mean: the column's sum (from the initial value 0) over 10000. -/
private theorem v6_at (j : Fin 128) : val_main_v6 (F := Ideal) x0 (ix1 j) = colMean x0 j := by
  rw [val_main_v6_apply, val_main_v4_apply, val_main_v5_apply, val_main_cst_apply, val_main_cst_0_apply]
  simp only [Ideal.hostDivf_def, Ideal.ofBits_def, Ideal.ofBits_zero_f32, zero_add, idx4_ix]
  rfl

/-- The mean broadcast back over the rows, in both places the reference rebuilds it. -/
private theorem v8_at (q : Fin 10000) (j : Fin 128) : val_main_v8 (F := Ideal) x0 (ix2 q j) = colMean x0 j := by
  rw [val_main_v8_apply, val_main_v7_apply, idx78_ix, v6_at]
private theorem v15_at (q : Fin 10000) (j : Fin 128) : val_main_v15 (F := Ideal) x0 (ix2 q j) = colMean x0 j := by
  rw [val_main_v15_apply, val_main_v14_apply, idx1415_ix, v6_at]

/-- The reference's column variance: the mean of the squared deviations. -/
private theorem v13_at (j : Fin 128) : val_main_v13 (F := Ideal) x0 (ix1 j) = colVar x0 j := by
  rw [val_main_v13_apply, val_main_v11_apply, val_main_v12_apply, val_main_cst_1_apply, val_main_cst_2_apply]
  simp only [Ideal.hostDivf_def, Ideal.ofBits_def, Ideal.ofBits_zero_f32, zero_add, idx11_ix, val_main_v10_apply,
    val_main_v9_apply, Ideal.mulf_def, Ideal.subf_def, v8_at]
  rfl

/-- The reciprocal square root of the variance plus the additive constant. -/
private theorem v19_at (j : Fin 128) : val_main_v19 (F := Ideal) x0 (ix1 j) = Ideal.rsqrt (colVar x0 j + epsC) := by
  rw [val_main_v19_apply, val_main_v18_apply, val_main_v17_apply, val_main_cst_3_apply, v13_at]
  simp only [Ideal.hostUnary_rsqrt_def, Ideal.addf_def, Ideal.ofBits_def]

/-- Entry (r, j) of the reference's normalised array. -/
theorem bn_entry (r : Fin 10000) (j : Fin 128) :
    val_main_v28 (F := Ideal) x0 x2 x3 (ix2 r j) = bnAt x0 x2 x3 r j := by
  rw [val_main_v28_apply, val_main_v25_apply, val_main_v22_apply, val_main_v16_apply, v15_at,
    val_main_v21_apply, val_main_v20_apply, idx2021_ix, v19_at,
    val_main_v24_apply, val_main_v23_apply, idx2324_ix,
    val_main_v27_apply, val_main_v26_apply, idx2627_ix]
  simp only [Ideal.addf_def, Ideal.mulf_def, Ideal.subf_def]
  rfl

/-! ### The first layer -/

/-- A product of a [10000, 128] array with a transposed [256, 128] weight reads, at entry (r, j) and contraction
    index k, the array at (r, k) and the weight at (j, k). -/
private theorem lidx49_ix (r : Fin 10000) (j : Fin 256) (k : Fin 128) : lidx_main_v49 (ix2 r j) k = ix2 r k :=
  funext fun a => Fin.ext (by match a with | ⟨0, _⟩ => rfl | ⟨1, _⟩ => rfl)
private theorem ridx49_ix (r : Fin 10000) (j : Fin 256) (k : Fin 128) :
    idx_main_v48 (ridx_main_v49 (ix2 r j) k) = ix2 j k :=
  funext fun a => Fin.ext (by match a with | ⟨0, _⟩ => rfl | ⟨1, _⟩ => rfl)
private theorem lidx54_ix (r : Fin 10000) (j : Fin 256) (k : Fin 128) : lidx_main_v54 (ix2 r j) k = ix2 r k :=
  funext fun a => Fin.ext (by match a with | ⟨0, _⟩ => rfl | ⟨1, _⟩ => rfl)
private theorem ridx54_ix (r : Fin 10000) (j : Fin 256) (k : Fin 128) :
    idx_main_v53 (ridx_main_v54 (ix2 r j) k) = ix2 j k :=
  funext fun a => Fin.ext (by match a with | ⟨0, _⟩ => rfl | ⟨1, _⟩ => rfl)

/-- A per-row vector broadcast along the columns is read, at entry (r, k), at row `r`; a per-column bias at column `j`. -/
private theorem idx4546_ix (r : Fin 10000) (k : Fin 128) : idx_main_v45 (idx_main_v46 (ix2 r k)) = ix1 r :=
  funext fun a => Fin.ext (by match a with | ⟨0, _⟩ => rfl)
private theorem idx5051_ix (r : Fin 10000) (j : Fin 256) : idx_main_v50 (idx_main_v51 (ix2 r j)) = ix1 j :=
  funext fun a => Fin.ext (by match a with | ⟨0, _⟩ => rfl)

/-- The divisor of the first aggregation: the in-degree, at least 1, the same along a row. -/
private theorem v46_at (r : Fin 10000) (k : Fin 128) :
    val_main_v46 (F := Ideal) x1 (ix2 r k) = max (val_main_v42 (F := Ideal) x1 (ix1 r)) oneC := by
  rw [val_main_v46_apply, val_main_v45_apply, idx4546_ix, val_main_v44_apply, val_main_v43_apply, val_main_cst_8_apply]
  simp only [Ideal.maximumf_def, Ideal.ofBits_def]

/-- Entry (r, j) of the reference's first layer (after the maximum with 0). -/
theorem layer1_entry (r : Fin 10000) (j : Fin 256) :
    val_main_v56 (F := Ideal) x0 x1 x2 x3 x4 x5 x6 (ix2 r j)
      = comb1Row (fun k => val_main_v38 (F := Ideal) x0 x1 x2 x3 (ix2 r k)) (fun k => val_main_v28 (F := Ideal) x0 x2 x3 (ix2 r k))
          (val_main_v42 (F := Ideal) x1 (ix1 r)) x4 x6 x5 j := by
  rw [val_main_v56_apply, val_main_v55_apply, val_main_v52_apply, val_main_v49_apply, val_main_v54_apply,
    val_main_v51_apply, val_main_v50_apply, idx5051_ix, val_main_call0_v0_apply, val_main_call0_cst_apply]
  simp only [lidx49_ix, lidx54_ix, val_main_v48_apply, val_main_v53_apply, ridx49_ix, ridx54_ix, val_main_v47_apply,
    v46_at, Ideal.maximumf_def, Ideal.addf_def, Ideal.hostDivf_def, Ideal.ofBits_def]
  rfl

/-! ### The second layer and the shortcut -/

/-- The three products of the second layer read, at entry (r, j) and contraction index k, the left array at (r, k)
    and the (transposed) weight at (j, k). -/
private theorem lidx77_ix (r : Fin 10000) (j k : Fin 256) : lidx_main_v77 (ix2 r j) k = ix2 r k :=
  funext fun a => Fin.ext (by match a with | ⟨0, _⟩ => rfl | ⟨1, _⟩ => rfl)
private theorem ridx77_ix (r : Fin 10000) (j k : Fin 256) : idx_main_v76 (ridx_main_v77 (ix2 r j) k) = ix2 j k :=
  funext fun a => Fin.ext (by match a with | ⟨0, _⟩ => rfl | ⟨1, _⟩ => rfl)
private theorem lidx82_ix (r : Fin 10000) (j k : Fin 256) : lidx_main_v82 (ix2 r j) k = ix2 r k :=
  funext fun a => Fin.ext (by match a with | ⟨0, _⟩ => rfl | ⟨1, _⟩ => rfl)
private theorem ridx82_ix (r : Fin 10000) (j k : Fin 256) : idx_main_v81 (ridx_main_v82 (ix2 r j) k) = ix2 j k :=
  funext fun a => Fin.ext (by match a with | ⟨0, _⟩ => rfl | ⟨1, _⟩ => rfl)
private theorem lidx85_ix (r : Fin 10000) (j : Fin 256) (k : Fin 128) : lidx_main_v85 (ix2 r j) k = ix2 r k :=
  funext fun a => Fin.ext (by match a with | ⟨0, _⟩ => rfl | ⟨1, _⟩ => rfl)
private theorem ridx85_ix (r : Fin 10000) (j : Fin 256) (k : Fin 128) :
    idx_main_v84 (ridx_main_v85 (ix2 r j) k) = ix2 j k :=
  funext fun a => Fin.ext (by match a with | ⟨0, _⟩ => rfl | ⟨1, _⟩ => rfl)

/-- The per-row divisor at row `r`, the two per-column biases at column `j`. -/
private theorem idx7374_ix (r : Fin 10000) (k : Fin 256) : idx_main_v73 (idx_main_v74 (ix2 r k)) = ix1 r :=
  funext fun a => Fin.ext (by match a with | ⟨0, _⟩ => rfl)
private theorem idx7879_ix (r : Fin 10000) (j : Fin 256) : idx_main_v78 (idx_main_v79 (ix2 r j)) = ix1 j :=
  funext fun a => Fin.ext (by match a with | ⟨0, _⟩ => rfl)
private theorem idx8788_ix (r : Fin 10000) (j : Fin 256) : idx_main_v87 (idx_main_v88 (ix2 r j)) = ix1 j :=
  funext fun a => Fin.ext (by match a with | ⟨0, _⟩ => rfl)

/-- The divisor of the second aggregation: the in-degree, at least 1, the same along a row. -/
private theorem v74_at (r : Fin 10000) (k : Fin 256) :
    val_main_v74 (F := Ideal) x1 (ix2 r k) = max (val_main_v70 (F := Ideal) x1 (ix1 r)) oneC := by
  rw [val_main_v74_apply, val_main_v73_apply, idx7374_ix, val_main_v72_apply, val_main_v71_apply, val_main_cst_14_apply]
  simp only [Ideal.maximumf_def, Ideal.ofBits_def]

/-- Entry (r, j) of the reference's result. -/
theorem layer2_entry (r : Fin 10000) (j : Fin 256) :
    val_main_v89 (F := Ideal) x0 x1 x2 x3 x4 x5 x6 x7 x8 x9 x10 x11 (ix2 r j)
      = comb2Row (fun k => val_main_v66 (F := Ideal) x0 x1 x2 x3 x4 x5 x6 (ix2 r k))
          (fun k => val_main_v56 (F := Ideal) x0 x1 x2 x3 x4 x5 x6 (ix2 r k))
          (val_main_v70 (F := Ideal) x1 (ix1 r)) (fun k => x0 (ix2 r k)) x7 x9 x10 x8 x11 j := by
  rw [val_main_v89_apply, val_main_v86_apply, val_main_v83_apply, val_main_v80_apply, val_main_v77_apply,
    val_main_v82_apply, val_main_v85_apply, val_main_v79_apply, val_main_v78_apply, idx7879_ix,
    val_main_v88_apply, val_main_v87_apply, idx8788_ix]
  simp only [lidx77_ix, lidx82_ix, lidx85_ix, val_main_v76_apply, val_main_v81_apply, val_main_v84_apply,
    ridx77_ix, ridx82_ix, ridx85_ix, val_main_v75_apply, v74_at, Ideal.addf_def, Ideal.hostDivf_def]
  rfl

end Cert.RefStages

end
-- ==== Proof.KernelRun.lean ====
/-
  The kernel program's run with its result named: every weakly fair execution from the launch memory ends with the result
  array at what the last of the three regions' write-backs leave (the fold of the program's segments at the last boundary)
  and with the twelve argument arrays as launched.
-/
import proofs.«130562_j82076825026573_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents and the
    arguments end unchanged. -/
theorem run : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
    Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.RunValue

end
-- ==== Proof.KernelValue.lean ====
/-
  The kernel program's result. Going through the program's six segments in order: the normalisation region leaves the
  reference's normalised array (twice: in single precision and as the half-precision copy, the same extended reals); the
  second host stretch therefore forms the reference's first-layer summed messages and in-degrees, and the first layer's
  region leaves the reference's first-layer output (again twice); the third host stretch then forms the reference's
  second-layer summed messages, and the last region leaves the reference's result. Each region step is the region's
  blocks-to-array theorem applied to an array whose entries are the stage formula, which is what the reference's own stage
  is at every entry.
-/
import proofs.«130562_j82076825026573_2_alg».proof.Proof.Fold
import proofs.«130562_j82076825026573_2_alg».proof.Proof.Gen.ReferenceIdeal.Read
import Idealize.ShloMosaic.Lib.ValueIdx
import proofs.«130562_j82076825026573_2_alg».proof.Proof.Host2
import proofs.«130562_j82076825026573_2_alg».proof.Proof.Norm
import proofs.«130562_j82076825026573_2_alg».proof.Proof.Layer1
import proofs.«130562_j82076825026573_2_alg».proof.Proof.Layer2
import proofs.«130562_j82076825026573_2_alg».proof.Proof.RefStages
import proofs.«130562_j82076825026573_2_alg».proof.Proof.KernelRun

set_option maxRecDepth 16384
set_option quotPrecheck false

noncomputable section

namespace Cert.KernelIdeal.Result

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

open Cert.Stages

local notation "xn" => Cert.ReferenceIdeal.Read.val_main_v28 (F := Ideal) a0 a2 a3
local notation "h1" => Cert.ReferenceIdeal.Read.val_main_v56 (F := Ideal) a0 a1 a2 a3 a4 a5 a6
local notation "res" => Cert.ReferenceIdeal.Read.val_main_v89 (F := Ideal) a0 a1 a2 a3 a4 a5 a6 a7 a8 a9 a10 a11

/-- After the first region the normalised array is the reference's. -/
theorem norm_f32 : (dat0 (V1 m ρ) c).arrAt 3 cfg0.N = (xn : (⟨S10000x128, .f32⟩ : BufTy).Contents (Elt Ideal)) :=
  Norm.final3 (V1 m ρ) a2 a3 c xn
    (fun r j => by rw [Host0.V1_arg0]; exact Cert.RefStages.bn_entry a0 a2 a3 r j)
    (Host0.V1_v4 m ρ c) (Host0.V1_v5 m ρ c)

/-- And so is its half-precision copy. -/
theorem norm_bf16 : (dat0 (V1 m ρ) c).arrAt 4 cfg0.N = (xn : (⟨S10000x128, .bf16⟩ : BufTy).Contents (Elt Ideal)) :=
  Norm.final4 (V1 m ρ) a2 a3 c xn
    (fun r j => by rw [Host0.V1_arg0]; exact Cert.RefStages.bn_entry a0 a2 a3 r j)
    (Host0.V1_v4 m ρ c) (Host0.V1_v5 m ρ c)

/-- The reference's first-layer output, at every entry, is the layer formula of what the first layer's region finds. -/
theorem layer1_entry (r : Fin 10000) (j : Fin 256) :
    h1 (ix2 r j) = comb1Row (fun k => V3 m ρ c main_v22 (ix2 r k)) (fun k => V3 m ρ c main_v6_0 (ix2 r k))
      (V3 m ρ c main_v11 (ix2 r (0 : Fin 1))) a4 a6 a5 j := by
  rw [Host1.V3_v22 m ρ c (norm_bf16 m ρ c), Host1.V3_v6_0 m ρ c (norm_f32 m ρ c), Host1.V3_v11 m ρ c r]
  exact Cert.RefStages.layer1_entry a0 a1 a2 a3 a4 a5 a6 r j

/-- After the second region the first layer's output array is the reference's. -/
theorem layer1_f32 : (dat1 (V3 m ρ) c).arrAt 6 cfg1.N = (h1 : (⟨S10000x256, .f32⟩ : BufTy).Contents (Elt Ideal)) :=
  Layer1.final6 (V3 m ρ) a4 a6 a5 c h1 (layer1_entry m ρ c) (Host1.V3_v23 m ρ c) (Host1.V3_v25 m ρ c) (Host1.V3_v24 m ρ c)

/-- And so is its half-precision copy. -/
theorem layer1_bf16 : (dat1 (V3 m ρ) c).arrAt 7 cfg1.N = (h1 : (⟨S10000x256, .bf16⟩ : BufTy).Contents (Elt Ideal)) :=
  Layer1.final7 (V3 m ρ) a4 a6 a5 c h1 (layer1_entry m ρ c) (Host1.V3_v23 m ρ c) (Host1.V3_v25 m ρ c) (Host1.V3_v24 m ρ c)

/-- The reference's result, at every entry, is the second layer's formula of what the last region finds. -/
theorem result_entry (r : Fin 10000) (j : Fin 256) :
    res (ix2 r j) = comb2Row (fun k => V5 m ρ c main_v37 (ix2 r k)) (fun k => V5 m ρ c main_v26_0 (ix2 r k))
      (V5 m ρ c main_v11 (ix2 r (0 : Fin 1))) (fun k => V5 m ρ c main_arg0 (ix2 r k)) a7 a9 a10 a8 a11 j := by
  rw [Host2.V5_v37 m ρ c (layer1_bf16 m ρ c), Host2.V5_v26_0 m ρ c (layer1_f32 m ρ c), Host2.V5_v11 m ρ c r, Host2.V5_arg0 m ρ c]
  exact Cert.RefStages.layer2_entry a0 a1 a2 a3 a4 a5 a6 a7 a8 a9 a10 a11 r j

/-- The result array at the last boundary is the reference's result of the launch arguments. -/
theorem result_eq : W6 m ρ c (Proc.devRef .tc main_v43) = res :=
  (Fold.W6_main_v43 m ρ c).trans
    (Layer2.final9 (V5 m ρ) a7 a9 a10 a8 a11 c res (result_entry m ρ c)
      (Host2.V5_v38 m ρ c) (Host2.V5_v40 m ρ c) (Host2.V5_v41 m ρ c) (Host2.V5_v39 m ρ c) (Host2.V5_v42 m ρ c))

end Cert.KernelIdeal.Result

end
-- ==== Proof.lean ====
/-
  The certificate of a two-layer mean-aggregation graph network with a batch-normalised input and a linear shortcut: the
  kernel program (three tiled regions — the normalisation, the first layer with its maximum with 0, the second layer with
  the shortcut — among host stretches that gather along the edge list and sum per target node) against the plain
  reference, on the extended reals.

  Both programs are the same composition of stages: the normalisation of the input over its 10000 rows, two gather-and-
  segment-sum steps over the same edge list, and two dense layers. The kernel tiles the dense layers in ten blocks of
  1000 nodes, takes each matrix product block by block into a zero accumulator, reduces columns inside one block, and
  keeps half-precision copies for the gathers; on the extended reals a change of float format is the identity, a product
  into a zero accumulator and the host's product are the same plain sum over the contracted axis, and the additions are
  grouped alike on both sides, so every stage of the kernel is the reference's stage entry by entry and no entry needs to
  be finite. The gather and the segment sums are never opened: both sides apply the same ones to the same arrays.

  The three frames are the generated frame runs (the reference's: its generated run with the result dropped); the
  idealization rewrote nothing, so the ledger conjunct is `True`.
-/
import proofs.«130562_j82076825026573_2_alg».proof.Defs
import proofs.«130562_j82076825026573_2_alg».proof.Proof.Gen.Kernel
import proofs.«130562_j82076825026573_2_alg».proof.Proof.Gen.Kernel.Skeleton
import proofs.«130562_j82076825026573_2_alg».proof.Proof.Gen.Kernel.Launch
import proofs.«130562_j82076825026573_2_alg».proof.Proof.Gen.Kernel.Points
import proofs.«130562_j82076825026573_2_alg».proof.Proof.Gen.Kernel.Frame
import proofs.«130562_j82076825026573_2_alg».proof.Proof.Gen.KernelIdeal
import proofs.«130562_j82076825026573_2_alg».proof.Proof.Gen.KernelIdeal.Skeleton
import proofs.«130562_j82076825026573_2_alg».proof.Proof.Gen.KernelIdeal.Launch
import proofs.«130562_j82076825026573_2_alg».proof.Proof.Gen.KernelIdeal.Points
import proofs.«130562_j82076825026573_2_alg».proof.Proof.Gen.KernelIdeal.Frame
import proofs.«130562_j82076825026573_2_alg».proof.Proof.Gen.ReferenceIdeal
import proofs.«130562_j82076825026573_2_alg».proof.Proof.Gen.Pre_finite_inputs
import proofs.«130562_j82076825026573_2_alg».proof.Proof.Gen.ReferenceIdeal.Read
import proofs.«130562_j82076825026573_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the twelve arguments both programs end with the reference's result of those arguments: the
    kernel by the walk through its six segments, the reference by its own run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Result.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v89_eq]
    obtain ⟨e0, e1, e2, e3, e4, e5, e6, e7, e8, e9, e10, e11⟩ := hagree c
    rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
